-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S2x2048x1024 .f32) (main_arg1 : FVec F S3072x1024 .f32) (main_arg2 : FVec F S3072x1024 .f32) (main_arg3 : FVec F S1024x1024 .f32) (main_arg4 : FVec F S1024x1024 .f32) (main_arg5 : FVec F S1024 .f32) (main_arg6 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S1024x3072 : Shape := ⟨2, ![1024, 3072]⟩
abbrev S1x1024 : Shape := ⟨2, ![1, 1024]⟩
abbrev S4096x1024 : Shape := ⟨2, ![4096, 1024]⟩
abbrev S4096x3072 : Shape := ⟨2, ![4096, 3072]⟩
abbrev S512x1024 : Shape := ⟨2, ![512, 1024]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩
abbrev S1024x512 : Shape := ⟨2, ![1024, 512]⟩
abbrev S512x512 : Shape := ⟨2, ![512, 512]⟩

abbrev nBuf : Space → Nat
  | .hbm => 70
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S3072x1024, .f32⟩
  | .hbm, ⟨8, _⟩ => ⟨S3072x1024, .f32⟩
  | .hbm, ⟨9, _⟩ => ⟨S_, .f32⟩
  | .hbm, ⟨10, _⟩ => ⟨S3072x1024, .f32⟩
  | .hbm, ⟨11, _⟩ => ⟨S3072x1024, .f32⟩
  | .hbm, ⟨12, _⟩ => ⟨S_, .f32⟩
  | .hbm, ⟨13, _⟩ => ⟨S3072x1024, .f32⟩
  | .hbm, ⟨14, _⟩ => ⟨S3072x1024, .f32⟩
  | .hbm, ⟨15, _⟩ => ⟨S_, .f32⟩
  | .hbm, ⟨16, _⟩ => ⟨S3072x1024, .f32⟩
  | .hbm, ⟨17, _⟩ => ⟨S3072x1024, .i1⟩
  | .hbm, ⟨18, _⟩ => ⟨S3072x1024, .f32⟩
  | .hbm, ⟨19, _⟩ => ⟨S3072x1024, .f32⟩
  | .hbm, ⟨20, _⟩ => ⟨S1024x3072, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .i1⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .i1⟩
  | .hbm, ⟨46, _⟩ => ⟨S1024, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x3072, .f32⟩
  | .hbm, ⟨51, _⟩ => ⟨S2x2048x3x16x64, .f32⟩
  | .hbm, ⟨52, _⟩ => ⟨S2x2048x1x16x64, .f32⟩
  | .hbm, ⟨53, _⟩ => ⟨S2x2048x16x64, .f32⟩
  | .hbm, ⟨54, _⟩ => ⟨S2x16x2048x64, .f32⟩
  | .hbm, ⟨55, _⟩ => ⟨S32x2048x64, .f32⟩
  | .hbm, ⟨56, _⟩ => ⟨S2x2048x1x16x64, .f32⟩
  | .hbm, ⟨57, _⟩ => ⟨S2x2048x16x64, .f32⟩
  | .hbm, ⟨58, _⟩ => ⟨S2x16x2048x64, .f32⟩
  | .hbm, ⟨59, _⟩ => ⟨S32x2048x64, .f32⟩
  | .hbm, ⟨60, _⟩ => ⟨S2x2048x1x16x64, .f32⟩
  | .hbm, ⟨61, _⟩ => ⟨S2x2048x16x64, .f32⟩
  | .hbm, ⟨62, _⟩ => ⟨S2x16x2048x64, .f32⟩
  | .hbm, ⟨63, _⟩ => ⟨S32x2048x64, .f32⟩
  | .hbm, ⟨64, _⟩ => ⟨S32x2048x64, .f32⟩
  | .hbm, ⟨65, _⟩ => ⟨S2x16x2048x64, .f32⟩
  | .hbm, ⟨66, _⟩ => ⟨S2x2048x16x64, .f32⟩
  | .hbm, ⟨67, _⟩ => ⟨S4096x1024, .f32⟩
  | .hbm, ⟨68, _⟩ => ⟨S4096x1024, .f32⟩
  | .hbm, ⟨69, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S1x512x64, .f32⟩
  | .local _ .vmem, ⟨7, _⟩ => ⟨S1x512x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S1x512x64, .f32⟩
  | .local _ .vmem, ⟨13, _⟩ => ⟨S1x512x64, .f32⟩
  | .local _ .vmem, ⟨14, _⟩ => ⟨S512x1024, .f32⟩
  | .local _ .vmem, ⟨15, _⟩ => ⟨S512x1024, .f32⟩
  | .local _ .vmem, ⟨16, _⟩ => ⟨S1024x512, .f32⟩
  | .local _ .vmem, ⟨17, _⟩ => ⟨S1024x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bcast_S_S3072x1024 : S_.BroadcastsInDim S3072x1024 (![] : Fin 0 → Fin S3072x1024.rank)
  transposes_S3072x1024_S1024x3072_1_0 : S3072x1024.Transposes [1, 0] S1024x3072
  bcast_S_S1024x1024 : S_.BroadcastsInDim S1024x1024 (![] : Fin 0 → Fin S1024x1024.rank)
  transposes_S1024x1024_S1024x1024_1_0 : S1024x1024.Transposes [1, 0] S1024x1024
  bcast_S_S1024 : S_.BroadcastsInDim S1024 (![] : Fin 0 → Fin S1024.rank)
  shapeCasts_S1024_S1x1024 : S1024.ShapeCasts S1x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x3072_S2x2048x3x16x64 : S4096x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .f32 = 32 ∨ (Rect.block (s := S4096x3072) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .f32 = 32 ∨ (Rect.block (s := S32x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .f32 = 32 ∨ (Rect.block (s := S32x2048x64) S1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .f32 = 32 ∨ (Rect.block (s := S1024x1024) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1024.size a
  hwx2_2 : ∀ i : grid2.Coords, EltTy.bits .f32 = 32 ∨ (Rect.block (s := S1x1024) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x1024.size a
  hwx2_3 : ∀ i : grid2.Coords, EltTy.bits .f32 = 32 ∨ (Rect.block (s := S4096x1024) S512x512.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v33) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S2x2048x3072 : Shape := ⟨3, ![2, 2048, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S3072x1024, .f32⟩
  | .hbm, ⟨8, _⟩ => ⟨S3072x1024, .f32⟩
  | .hbm, ⟨9, _⟩ => ⟨S_, .f32⟩
  | .hbm, ⟨10, _⟩ => ⟨S3072x1024, .f32⟩
  | .hbm, ⟨11, _⟩ => ⟨S3072x1024, .f32⟩
  | .hbm, ⟨12, _⟩ => ⟨S_, .f32⟩
  | .hbm, ⟨13, _⟩ => ⟨S3072x1024, .f32⟩
  | .hbm, ⟨14, _⟩ => ⟨S3072x1024, .f32⟩
  | .hbm, ⟨15, _⟩ => ⟨S_, .f32⟩
  | .hbm, ⟨16, _⟩ => ⟨S3072x1024, .f32⟩
  | .hbm, ⟨17, _⟩ => ⟨S3072x1024, .i1⟩
  | .hbm, ⟨18, _⟩ => ⟨S3072x1024, .f32⟩
  | .hbm, ⟨19, _⟩ => ⟨S3072x1024, .f32⟩
  | .hbm, ⟨20, _⟩ => ⟨S2x2048x3072, .f32⟩
  | .hbm, ⟨21, _⟩ => ⟨S2x2048x3x16x64, .f32⟩
  | .hbm, ⟨22, _⟩ => ⟨S2x2048x1x16x64, .f32⟩
  | .hbm, ⟨23, _⟩ => ⟨S2x2048x16x64, .f32⟩
  | .hbm, ⟨24, _⟩ => ⟨S2x16x2048x64, .f32⟩
  | .hbm, ⟨25, _⟩ => ⟨S2x2048x1x16x64, .f32⟩
  | .hbm, ⟨26, _⟩ => ⟨S2x2048x16x64, .f32⟩
  | .hbm, ⟨27, _⟩ => ⟨S2x16x2048x64, .f32⟩
  | .hbm, ⟨28, _⟩ => ⟨S2x2048x1x16x64, .f32⟩
  | .hbm, ⟨29, _⟩ => ⟨S2x2048x16x64, .f32⟩
  | .hbm, ⟨30, _⟩ => ⟨S2x16x2048x64, .f32⟩
  | .hbm, ⟨31, _⟩ => ⟨S2x16x2048x2048, .f32⟩
  | .hbm, ⟨32, _⟩ => ⟨S_, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | .hbm, ⟨50, _⟩ => ⟨S2x2048x16x64, .f32⟩
  | .hbm, ⟨51, _⟩ => ⟨S2x2048x1024, .f32⟩
  | .hbm, ⟨52, _⟩ => ⟨S1024x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S_, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .i1⟩
  | .hbm, ⟨63, _⟩ => ⟨S1024x1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .i1⟩
  | .hbm, ⟨75, _⟩ => ⟨S1024, .f32⟩
  | .hbm, ⟨76, _⟩ => ⟨S1024x1024, .f32⟩
  | .hbm, ⟨77, _⟩ => ⟨S2x2048x1024, .f32⟩
  | .hbm, ⟨78, _⟩ => ⟨S1024, .f32⟩
  | .hbm, ⟨79, _⟩ => ⟨S1x1x1024, .f32⟩
  | .hbm, ⟨80, _⟩ => ⟨S2x2048x1024, .f32⟩
  | .hbm, ⟨81, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S_S3072x1024 : S_.BroadcastsInDim S3072x1024 (![] : Fin 0 → Fin S3072x1024.rank)
  shapeCasts_S2x2048x3072_S2x2048x3x16x64 : S2x2048x3072.ShapeCasts S2x2048x3x16x64
  slices_S2x2048x3x16x64_S2x2048x1x16x64_0_0_0_0_0 : S2x2048x3x16x64.Slices ![0, 0, 0, 0, 0] S2x2048x1x16x64
  shapeCasts_S2x2048x1x16x64_S2x2048x16x64 : S2x2048x1x16x64.ShapeCasts S2x2048x16x64
  transposes_S2x2048x16x64_S2x16x2048x64_0_2_1_3 : S2x2048x16x64.Transposes [0, 2, 1, 3] S2x16x2048x64
  slices_S2x2048x3x16x64_S2x2048x1x16x64_0_0_1_0_0 : S2x2048x3x16x64.Slices ![0, 0, 1, 0, 0] S2x2048x1x16x64
  slices_S2x2048x3x16x64_S2x2048x1x16x64_0_0_2_0_0 : S2x2048x3x16x64.Slices ![0, 0, 2, 0, 0] S2x2048x1x16x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S_S1024x1024 : S_.BroadcastsInDim S1024x1024 (![] : Fin 0 → Fin S1024x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.QkvBody.lean ====
/- The first region's body, read at an index.  A block of 512 rows of the activations meets a block of 1024
   columns of the gated, transposed projection weights; the contraction runs over all 1024 input features in one
   step, into a zero accumulator, and the two roundings to bf16 on the way into the product are the identity on
   extended reals.  So entry (p, q) of what the body stores is  Σ_k a[p,k] · b[k,q]. -/
import proofs.«152784_j41704132444382_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-- The zero offsets of a rank-2 whole-buffer access, as the constant function. -/
theorem zeros2 : (![0, 0] : Fin 2 → Nat) = fun _ => 0 := funext fun a => by fin_cases a <;> rfl

/-! The product's operand indices at an output index, axis by axis: a kept axis carries the output's coordinate, the
    contracted axis the summation index. -/
theorem qkv_lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem qkv_lhs1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem qkv_rhs0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem qkv_rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of the stored block: the row p of the left block against the column q of the right block. -/
theorem qkvBlock_apply (x0 : Vec Ideal S512x1024 .f32) (x1 : Vec Ideal S1024x1024 .f32) (p : Fin 512) (q : Fin 1024) :
    out0_2 x0 x1 (ix2 p q) = ∑ k : Fin 1024, x0 (ix2 p k) * x1 (ix2 k q) := by
  unfold out0_2
  rw [View.canon_unit_zero zeros2]
  simp only [View.ld_unit_zero (S := S512x1024) zeros2, View.ld_unit_zero (S := S1024x1024) zeros2]
  unfold k0_pay1
  simp only [shapeCast_self]
  refine (Ideal.matmul_constant_zero_apply dot_S512x1024_S1024x1024_S512x1024_1_0_0_1_n_n none _ _ (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact qkv_lhs0 _ _
    | ⟨1, _⟩ => exact (qkv_lhs1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (qkv_rhs0 _ _).trans hk
    | ⟨1, _⟩ => exact qkv_rhs1 _ _)
  rw [el, er]
  rfl

end Cert.KernelIdeal.Hand

end
-- ==== Proof.QkvArray.lean ====
/- The first region's result array.  The grid is 8 row blocks by 3 column blocks.  At a point, the left window
   holds rows 512·r … 512·r+511 of the activations (all 1024 features), the right window holds columns
   1024·s … 1024·s+1023 of the weights (all 1024 features), and the body writes block (r, s) of the result.  Since
   an entry of a block product only needs the full row and the full column, every block is the restriction of ONE
   function of the two whole arrays: entry (i, o) is Σ_k a[i,k] · b[k,o].  The 24 blocks tile the 4096 × 3072 result,
   so the array ends holding that function. -/
import proofs.«152784_j41704132444382_1_alg».proof.Proof.QkvBody

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

/-- Rows of `a` against columns of `b`, over the 1024 shared features. -/
def qkvRows (a : S4096x1024.Idx → EReal) (b : S1024x3072.Idx → EReal) : S4096x3072.Idx → EReal :=
  fun i => ∑ k : Fin 1024, a (ix2 ⟨(i 0).val, (i 0).isLt⟩ k) * b (ix2 k ⟨(i 1).val, (i 1).isLt⟩)

/-- The stored block at any of its indices, the coordinates read off the index. -/
theorem qkvBlock_at (x0 : Vec Ideal S512x1024 .f32) (x1 : Vec Ideal S1024x1024 .f32) (j : S512x1024.Idx) :
    out0_2 x0 x1 j = ∑ k : Fin 1024, x0 (ix2 ⟨(j 0).val, (j 0).isLt⟩ k) * x1 (ix2 k ⟨(j 1).val, (j 1).isLt⟩) := by
  have e : j = ix2 ⟨(j 0).val, (j 0).isLt⟩ ⟨(j 1).val, (j 1).isLt⟩ := eq_ix2 j
  rw [e]
  exact qkvBlock_apply x0 x1 _ _

/-- The index maps over the 24 grid points: the left window follows the output's row block and stays at feature
    block 0; the right window stays at feature block 0 and follows the output's column block. -/
theorem qkv_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

/-- Every one of the 8 × 3 blocks is some point's. -/
theorem qkv_idx_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

variable (V : (c : Dev nD) → (b : Ref sig .tc) → Buf (Elt Ideal) ((c : Thread nD τ).loc b))

/-- What a point writes back is its block of `qkvRows` of the two arrays as the region finds them. -/
theorem qkv_flushed (c : Dev nD) (t : Fin cfg0.N) :
    (dat0 V c).flushed 2 t = ((cfg0.win 2).blk t).view.read (Elt Ideal) (qkvRows (V c main_v33) (V c main_v10)) := by
  show (cfg0.win 2).cut (grid0.coords t) ((dat0 V c).after 2 t) = _
  rw [after0_2]
  obtain ⟨e0, e1, e2, e3, e4, e5⟩ := qkv_idx_facts t
  funext j
  have hj0 : (j 0).val < 512 := (j 0).isLt
  have hj1 : (j 1).val < 1024 := (j 1).isLt
  refine (qkvBlock_at (iblk0 V c 0 t) (iblk0 V c 1 t) _).trans ?_
  show _ = qkvRows (V c main_v33) (V c main_v10) (((cfg0.win 2).blk t).view.emb j)
  unfold qkvRows
  refine Finset.sum_congr rfl fun k _ => ?_
  have hk : k.val < 1024 := k.isLt
  have h0 : iblk0 V c 0 t (ix2 ⟨(j 0).val, hj0⟩ k)
      = V c main_v33 (ix2 ⟨((((cfg0.win 2).blk t).view.emb j) 0).val, ((((cfg0.win 2).blk t).view.emb j) 0).isLt⟩ k) := by
    show V c main_v33 (((cfg0.win 0).blk t).view.emb (ix2 ⟨(j 0).val, hj0⟩ k)) = _
    refine congrArg (V c main_v33) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  have h1 : iblk0 V c 1 t (ix2 k ⟨(j 1).val, hj1⟩)
      = V c main_v10 (ix2 k ⟨((((cfg0.win 2).blk t).view.emb j) 1).val, ((((cfg0.win 2).blk t).view.emb j) 1).isLt⟩) := by
    show V c main_v10 (((cfg0.win 1).blk t).view.emb (ix2 k ⟨(j 1).val, hj1⟩)) = _
    refine congrArg (V c main_v10) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega
  exact congrArg₂ (· * ·) h0 h1

/-- An index of the result is in a point's block iff each coordinate is in the block's range on its axis. -/
theorem qkv_mem_blk (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v34).slice (win0_2.rect t)).set ↔ _
  rw [View.set_slice_whole, Rect.mem_set_unit]
  exact Iff.rfl

/-- Every index of the result lies in the block of the point at row block i₀ / 512, column block i₁ / 1024. -/
theorem qkv_cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := qkv_idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [qkv_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the region: rows of the activations against columns of the weights. -/
theorem qkv_final (c : Dev nD) : (dat0 V c).arrAt 2 cfg0.N = qkvRows (V c main_v33) (V c main_v10) :=
  (dat0 V c).arrAt_eq_of_cover 2 (qkvRows (V c main_v33) (V c main_v10)) (fun t _ => qkv_flushed V c t) qkv_cover

end Cert.KernelIdeal.Hand

end
-- ==== Proof.AttnSpec.lean ====
/- One row of softmax attention on the extended reals, as a function of the query row and of all key and value
   rows of one head.  The scores are the query row's inner products with every key row, scaled by 1/32 (the float
   literal 0x3D000000); the weights are exp(score − row maximum), the maximum taken from −∞ (the literal
   0xFF800000); a weight is divided by the sum of the row's weights; the output coordinate d is the weighted sum of
   the value rows' coordinate d.  Both programs compute exactly this, on differently laid-out arrays. -/
import Idealize.ShloMosaic.PureOps.Ideal

noncomputable section

namespace AttnSpec

open Idealize.ShloMosaic

/-- The scaled score of the query row against key row `j`. -/
def scores (q : Fin 64 → EReal) (K : Fin 2048 → Fin 64 → EReal) (j : Fin 2048) : EReal :=
  (∑ e : Fin 64, q e * K j e) * Ideal.ofBits .f32 0x3D000000#32

/-- The maximum of a row of scores, started from the literal −∞. -/
def rowMax (s : Fin 2048 → EReal) : EReal :=
  (Finset.univ : Finset (Fin 2048)).fold max (Ideal.ofBits .f32 0xFF800000#32) s

/-- The unnormalised weight of key `j`. -/
def weight (s : Fin 2048 → EReal) (j : Fin 2048) : EReal := Ideal.exp (s j - rowMax s)

/-- Coordinate `d` of the attention output of one query row. -/
def attnRow (q : Fin 64 → EReal) (K V : Fin 2048 → Fin 64 → EReal) (d : Fin 64) : EReal :=
  ∑ j : Fin 2048, Ideal.div (weight (scores q K) j) (∑ j' : Fin 2048, weight (scores q K) j') * V j d

end AttnSpec

end
-- ==== Proof.AttnBody.lean ====
/- The attention region's body, read at an index.  A point holds 512 query rows of one head and all 2048 key rows
   and value rows of that head.  Entry (0, i, d) of what the body stores depends only on query row i and on the key
   and value rows: it is one row of softmax attention (`AttnSpec.attnRow`).  The scores are a product into a zero
   accumulator times the splat literal 1/32; the row maximum and the row sum are lane reductions over the 2048 keys,
   kept as a unit column and broadcast back over the keys; the roundings to bf16 are the identity on extended reals. -/
import proofs.«152784_j41704132444382_1_alg».proof.Proof.Gen.KernelIdeal.Frame
import proofs.«152784_j41704132444382_1_alg».proof.Proof.AttnSpec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx AttnSpec

/-- The zero offsets of a rank-3 whole-buffer access, as the constant function. -/
theorem zeros3 : (![0, 0, 0] : Fin 3 → Nat) = fun _ => 0 := funext fun a => by fin_cases a <;> rfl

/-! The two products' operand indices at an output index, axis by axis: the head axis and a kept axis carry the
    output's coordinates, the contracted axis the summation index. -/
theorem sc_lhs0 (j : S1x512x2048.Idx) (q : dot_S1x512x64_S1x2048x64_S1x512x2048_2_2_1_1_0_0.contr.Idx) :
    (dot_S1x512x64_S1x2048x64_S1x512x2048_2_2_1_1_0_0.lhsIdx j q 0).val = (j 0).val := by
  unfold DotDims.lhsIdx
  rw [dif_pos (show (0 : Fin S1x512x64.rank) ∈ dot_S1x512x64_S1x2048x64_S1x512x2048_2_2_1_1_0_0.lhsBatch by decide)]
  rfl
theorem sc_lhs1 (j : S1x512x2048.Idx) (q : dot_S1x512x64_S1x2048x64_S1x512x2048_2_2_1_1_0_0.contr.Idx) :
    (dot_S1x512x64_S1x2048x64_S1x512x2048_2_2_1_1_0_0.lhsIdx j q 1).val = (j 1).val := by
  unfold DotDims.lhsIdx
  rw [dif_neg (show ¬(1 : Fin S1x512x64.rank) ∈ dot_S1x512x64_S1x2048x64_S1x512x2048_2_2_1_1_0_0.lhsBatch by decide), dif_pos (show (1 : Fin S1x512x64.rank) ∈ dot_S1x512x64_S1x2048x64_S1x512x2048_2_2_1_1_0_0.lhsNonContracting by decide)]
  rfl
theorem sc_lhs2 (j : S1x512x2048.Idx) (q : dot_S1x512x64_S1x2048x64_S1x512x2048_2_2_1_1_0_0.contr.Idx) :
    (dot_S1x512x64_S1x2048x64_S1x512x2048_2_2_1_1_0_0.lhsIdx j q 2).val = (q ⟨0, by decide⟩).val :=
  dot_S1x512x64_S1x2048x64_S1x512x2048_2_2_1_1_0_0.lhsIdx_val_of_single rfl j q
theorem sc_rhs0 (j : S1x512x2048.Idx) (q : dot_S1x512x64_S1x2048x64_S1x512x2048_2_2_1_1_0_0.contr.Idx) :
    (dot_S1x512x64_S1x2048x64_S1x512x2048_2_2_1_1_0_0.rhsIdx j q 0).val = (j 0).val := by
  unfold DotDims.rhsIdx
  rw [dif_pos (show (0 : Fin S1x2048x64.rank) ∈ dot_S1x512x64_S1x2048x64_S1x512x2048_2_2_1_1_0_0.rhsBatch by decide)]
  rfl
theorem sc_rhs1 (j : S1x512x2048.Idx) (q : dot_S1x512x64_S1x2048x64_S1x512x2048_2_2_1_1_0_0.contr.Idx) :
    (dot_S1x512x64_S1x2048x64_S1x512x2048_2_2_1_1_0_0.rhsIdx j q 1).val = (j 2).val := by
  unfold DotDims.rhsIdx
  rw [dif_neg (show ¬(1 : Fin S1x2048x64.rank) ∈ dot_S1x512x64_S1x2048x64_S1x512x2048_2_2_1_1_0_0.rhsBatch by decide), dif_pos (show (1 : Fin S1x2048x64.rank) ∈ dot_S1x512x64_S1x2048x64_S1x512x2048_2_2_1_1_0_0.rhsNonContracting by decide)]
  rfl
theorem sc_rhs2 (j : S1x512x2048.Idx) (q : dot_S1x512x64_S1x2048x64_S1x512x2048_2_2_1_1_0_0.contr.Idx) :
    (dot_S1x512x64_S1x2048x64_S1x512x2048_2_2_1_1_0_0.rhsIdx j q 2).val = (q ⟨0, by decide⟩).val :=
  dot_S1x512x64_S1x2048x64_S1x512x2048_2_2_1_1_0_0.rhsIdx_val_of_single rfl j q
theorem av_lhs0 (j : S1x512x64.Idx) (q : dot_S1x512x2048_S1x2048x64_S1x512x64_2_1_1_2_0_0.contr.Idx) :
    (dot_S1x512x2048_S1x2048x64_S1x512x64_2_1_1_2_0_0.lhsIdx j q 0).val = (j 0).val := by
  unfold DotDims.lhsIdx
  rw [dif_pos (show (0 : Fin S1x512x2048.rank) ∈ dot_S1x512x2048_S1x2048x64_S1x512x64_2_1_1_2_0_0.lhsBatch by decide)]
  rfl
theorem av_lhs1 (j : S1x512x64.Idx) (q : dot_S1x512x2048_S1x2048x64_S1x512x64_2_1_1_2_0_0.contr.Idx) :
    (dot_S1x512x2048_S1x2048x64_S1x512x64_2_1_1_2_0_0.lhsIdx j q 1).val = (j 1).val := by
  unfold DotDims.lhsIdx
  rw [dif_neg (show ¬(1 : Fin S1x512x2048.rank) ∈ dot_S1x512x2048_S1x2048x64_S1x512x64_2_1_1_2_0_0.lhsBatch by decide), dif_pos (show (1 : Fin S1x512x2048.rank) ∈ dot_S1x512x2048_S1x2048x64_S1x512x64_2_1_1_2_0_0.lhsNonContracting by decide)]
  rfl
theorem av_lhs2 (j : S1x512x64.Idx) (q : dot_S1x512x2048_S1x2048x64_S1x512x64_2_1_1_2_0_0.contr.Idx) :
    (dot_S1x512x2048_S1x2048x64_S1x512x64_2_1_1_2_0_0.lhsIdx j q 2).val = (q ⟨0, by decide⟩).val :=
  dot_S1x512x2048_S1x2048x64_S1x512x64_2_1_1_2_0_0.lhsIdx_val_of_single rfl j q
theorem av_rhs0 (j : S1x512x64.Idx) (q : dot_S1x512x2048_S1x2048x64_S1x512x64_2_1_1_2_0_0.contr.Idx) :
    (dot_S1x512x2048_S1x2048x64_S1x512x64_2_1_1_2_0_0.rhsIdx j q 0).val = (j 0).val := by
  unfold DotDims.rhsIdx
  rw [dif_pos (show (0 : Fin S1x2048x64.rank) ∈ dot_S1x512x2048_S1x2048x64_S1x512x64_2_1_1_2_0_0.rhsBatch by decide)]
  rfl
theorem av_rhs1 (j : S1x512x64.Idx) (q : dot_S1x512x2048_S1x2048x64_S1x512x64_2_1_1_2_0_0.contr.Idx) :
    (dot_S1x512x2048_S1x2048x64_S1x512x64_2_1_1_2_0_0.rhsIdx j q 1).val = (q ⟨0, by decide⟩).val :=
  dot_S1x512x2048_S1x2048x64_S1x512x64_2_1_1_2_0_0.rhsIdx_val_of_single rfl j q
theorem av_rhs2 (j : S1x512x64.Idx) (q : dot_S1x512x2048_S1x2048x64_S1x512x64_2_1_1_2_0_0.contr.Idx) :
    (dot_S1x512x2048_S1x2048x64_S1x512x64_2_1_1_2_0_0.rhsIdx j q 2).val = (j 2).val := by
  unfold DotDims.rhsIdx
  rw [dif_neg (show ¬(2 : Fin S1x2048x64.rank) ∈ dot_S1x512x2048_S1x2048x64_S1x512x64_2_1_1_2_0_0.rhsBatch by decide), dif_pos (show (2 : Fin S1x2048x64.rank) ∈ dot_S1x512x2048_S1x2048x64_S1x512x64_2_1_1_2_0_0.rhsNonContracting by decide)]
  rfl

/-- A lane reduction's result kept as a unit column and broadcast back over the lanes reads, at (0, i, j), the
    reduced vector at (0, i). -/
theorem keepdims_at {α : Type} (r : S1x512.Idx → α) (hc : S1x512.ShapeCasts S1x512x1) (hb : S1x512x1.Broadcasts S1x512x2048)
    (i : Fin 512) (j : Fin 2048) :
    broadcastTo S1x512x2048 (shapeCast S1x512x1 r hc) hb (ix3 0 i j) = r (ix2 0 i) := by
  refine (broadcastTo_apply _ hb (ix3 0 i j) (ix3 0 i 0) fun a => ?_).trans ?_
  · match a with
    | ⟨0, _⟩ => rfl
    | ⟨1, _⟩ => rfl
    | ⟨2, _⟩ => rfl
  · refine shapeCast_apply r hc (ix3 0 i 0) (ix2 0 i) ?_
    rw [Shape.rowMajor_val_two, Shape.rowMajor_val_three]
    show (0 * 512 + i.val) = (0 * 512 + i.val) * 1 + 0
    omega

/-- The scores block at (0, i, j): the scaled inner product of query row i and key row j. -/
theorem scores_at (x0 : FVec Ideal S1x512x64 .f32) (x1 : FVec Ideal S1x2048x64 .f32) (hb : FTy.bits .bf16 < FTy.bits .f32)
    (i : Fin 512) (j : Fin 2048) :
    mulf (matmul dot_S1x512x64_S1x2048x64_S1x512x2048_2_2_1_1_0_0 none (truncf .bf16 x0 hb) (truncf .bf16 x1 hb) (constant S1x512x2048 .f32 0x00000000#32))
        (broadcast S1x512x2048 (Scalar.ofBits (F := Ideal) .f32 0x3D000000#32)) (ix3 0 i j)
      = scores (fun e => x0 (ix3 0 i e)) (fun j e => x1 (ix3 0 j e)) j := by
  show FloatOps.matmul dot_S1x512x64_S1x2048x64_S1x512x2048_2_2_1_1_0_0 none (truncf .bf16 x0 hb) (truncf .bf16 x1 hb) (constant S1x512x2048 .f32 0x00000000#32) (ix3 0 i j)
      * Ideal.ofBits .f32 0x3D000000#32 = _
  unfold scores
  refine congrArg (· * Ideal.ofBits .f32 0x3D000000#32) ?_
  refine (Ideal.matmul_constant_zero_apply dot_S1x512x64_S1x2048x64_S1x512x2048_2_2_1_1_0_0 none _ _ (ix3 0 i j)).trans ?_
  rw [← Equiv.sum_comp (contrEquiv1 dot_S1x512x64_S1x2048x64_S1x512x2048_2_2_1_1_0_0 64 rfl rfl).symm]
  refine Finset.sum_congr rfl fun k _ => ?_
  have hk := contrEquiv1_symm_val dot_S1x512x64_S1x2048x64_S1x512x2048_2_2_1_1_0_0 64 rfl rfl k
  have el : dot_S1x512x64_S1x2048x64_S1x512x2048_2_2_1_1_0_0.lhsIdx (ix3 0 i j) ((contrEquiv1 dot_S1x512x64_S1x2048x64_S1x512x2048_2_2_1_1_0_0 64 rfl rfl).symm k) = ix3 0 i k := funext fun a => Fin.ext (by
    match a with
    | ⟨0, _⟩ => exact sc_lhs0 _ _
    | ⟨1, _⟩ => exact sc_lhs1 _ _
    | ⟨2, _⟩ => exact (sc_lhs2 _ _).trans hk)
  have er : dot_S1x512x64_S1x2048x64_S1x512x2048_2_2_1_1_0_0.rhsIdx (ix3 0 i j) ((contrEquiv1 dot_S1x512x64_S1x2048x64_S1x512x2048_2_2_1_1_0_0 64 rfl rfl).symm k) = ix3 0 j k := funext fun a => Fin.ext (by
    match a with
    | ⟨0, _⟩ => exact sc_rhs0 _ _
    | ⟨1, _⟩ => exact sc_rhs1 _ _
    | ⟨2, _⟩ => exact (sc_rhs2 _ _).trans hk)
  rw [el, er]
  rfl

/-- The row maximum, kept and broadcast, at (0, i, j): the fold of `max` from −∞ over the row's 2048 scores. -/
theorem keepMax_at (S : FVec Ideal S1x512x2048 .f32) (hr : S1x512x2048.Reduces [2] S1x512) (hφ : FKind.Formats .f32)
    (hacc : (0xFF800000#32 : BitVec 32) = FKind.maximumf.neutral .f32 hφ)
    (hc : S1x512.ShapeCasts S1x512x1) (hb : S1x512x1.Broadcasts S1x512x2048) (i : Fin 512) (j : Fin 2048) :
    broadcastTo S1x512x2048 (shapeCast S1x512x1 (multiReduction .maximumf [2] S1x512 S 0xFF800000#32 hr hφ hacc) hc) hb (ix3 0 i j)
      = rowMax (fun j' => S (ix3 0 i j')) := by
  refine (keepdims_at _ hc hb i j).trans ?_
  refine (Ideal.multiReduction_maximumf_single S 0xFF800000#32 hr hφ hacc (ix2 0 i)).trans ?_
  unfold rowMax
  refine congrArg (Finset.fold max (Ideal.ofBits .f32 0xFF800000#32) · Finset.univ) ?_
  funext j'
  refine congrArg S (funext fun a => Fin.ext ?_)
  match a with
  | ⟨0, _⟩ => rfl
  | ⟨1, _⟩ => rfl
  | ⟨2, _⟩ => rfl

/-- The row sum, kept and broadcast, at (0, i, j): the sum of the row's 2048 entries. -/
theorem keepSum_at (E : FVec Ideal S1x512x2048 .f32) (hr : S1x512x2048.Reduces [2] S1x512) (hφ : FKind.Formats .f32)
    (hacc : (0x00000000#32 : BitVec 32) = FKind.add.neutral .f32 hφ)
    (hc : S1x512.ShapeCasts S1x512x1) (hb : S1x512x1.Broadcasts S1x512x2048) (i : Fin 512) (j : Fin 2048) :
    broadcastTo S1x512x2048 (shapeCast S1x512x1 (multiReduction .add [2] S1x512 E 0x00000000#32 hr hφ hacc) hc) hb (ix3 0 i j)
      = ∑ j' : Fin 2048, E (ix3 0 i j') := by
  refine (keepdims_at _ hc hb i j).trans ?_
  refine (Ideal.multiReduction_add_single E 0x00000000#32 hr hφ hacc (ix2 0 i)).trans ?_
  refine Finset.sum_congr rfl fun j' _ => ?_
  refine congrArg E (funext fun a => Fin.ext ?_)
  match a with
  | ⟨0, _⟩ => rfl
  | ⟨1, _⟩ => rfl
  | ⟨2, _⟩ => rfl

/-- The block of scaled scores of a point's 512 query rows against the head's 2048 key rows. -/
abbrev scoreBlock (x0 : FVec Ideal S1x512x64 .f32) (x1 : FVec Ideal S1x2048x64 .f32) (hb : FTy.bits .bf16 < FTy.bits .f32) :
    FVec Ideal S1x512x2048 .f32 :=
  mulf (matmul dot_S1x512x64_S1x2048x64_S1x512x2048_2_2_1_1_0_0 none (truncf .bf16 x0 hb) (truncf .bf16 x1 hb) (constant S1x512x2048 .f32 0x00000000#32))
    (broadcast S1x512x2048 (Scalar.ofBits (F := Ideal) .f32 0x3D000000#32))

/-- The unnormalised weights block at (0, i, j): exp of the score minus the row's maximum. -/
theorem weight_at (x0 : FVec Ideal S1x512x64 .f32) (x1 : FVec Ideal S1x2048x64 .f32) (hb : FTy.bits .bf16 < FTy.bits .f32)
    (hr : S1x512x2048.Reduces [2] S1x512) (hφ : FKind.Formats .f32)
    (hacc : (0xFF800000#32 : BitVec 32) = FKind.maximumf.neutral .f32 hφ)
    (hc : S1x512.ShapeCasts S1x512x1) (hbc : S1x512x1.Broadcasts S1x512x2048) (i : Fin 512) (j : Fin 2048) :
    exp (subf (scoreBlock x0 x1 hb)
        (broadcastTo S1x512x2048 (shapeCast S1x512x1 (multiReduction .maximumf [2] S1x512 (scoreBlock x0 x1 hb) 0xFF800000#32 hr hφ hacc) hc) hbc))
        (ix3 0 i j)
      = weight (scores (fun e => x0 (ix3 0 i e)) (fun j e => x1 (ix3 0 j e))) j := by
  show Ideal.exp (scoreBlock x0 x1 hb (ix3 0 i j) - _) = Ideal.exp (_ - _)
  refine congrArg Ideal.exp (congrArg₂ (· - ·) (scores_at x0 x1 hb i j) ?_)
  refine (keepMax_at _ hr hφ hacc hc hbc i j).trans ?_
  exact congrArg rowMax (funext fun j'' => scores_at x0 x1 hb i j'')

/-- Entry (0, i, d) of the stored block is one row of softmax attention. -/
theorem attnBlock_apply (x0 : Vec Ideal S1x512x64 .f32) (x1 x2 : Vec Ideal S1x2048x64 .f32) (i : Fin 512) (d : Fin 64) :
    out1_3 x0 x1 x2 (ix3 0 i d)
      = attnRow (fun e => x0 (ix3 0 i e)) (fun j e => x1 (ix3 0 j e)) (fun j e => x2 (ix3 0 j e)) d := by
  unfold out1_3
  rw [View.canon_unit_zero zeros3]
  simp only [View.ld_unit_zero (S := S1x512x64) zeros3, View.ld_unit_zero (S := S1x2048x64) zeros3]
  unfold k1_pay1
  simp only [shapeCast_self]
  refine (Ideal.matmul_constant_zero_apply dot_S1x512x2048_S1x2048x64_S1x512x64_2_1_1_2_0_0 none _ _ (ix3 0 i d)).trans ?_
  rw [← Equiv.sum_comp (contrEquiv1 dot_S1x512x2048_S1x2048x64_S1x512x64_2_1_1_2_0_0 2048 rfl rfl).symm]
  unfold attnRow
  refine Finset.sum_congr rfl fun j _ => ?_
  have hk := contrEquiv1_symm_val dot_S1x512x2048_S1x2048x64_S1x512x64_2_1_1_2_0_0 2048 rfl rfl j
  have el : dot_S1x512x2048_S1x2048x64_S1x512x64_2_1_1_2_0_0.lhsIdx (ix3 0 i d) ((contrEquiv1 dot_S1x512x2048_S1x2048x64_S1x512x64_2_1_1_2_0_0 2048 rfl rfl).symm j) = ix3 0 i j := funext fun a => Fin.ext (by
    match a with
    | ⟨0, _⟩ => exact av_lhs0 _ _
    | ⟨1, _⟩ => exact av_lhs1 _ _
    | ⟨2, _⟩ => exact (av_lhs2 _ _).trans hk)
  have er : dot_S1x512x2048_S1x2048x64_S1x512x64_2_1_1_2_0_0.rhsIdx (ix3 0 i d) ((contrEquiv1 dot_S1x512x2048_S1x2048x64_S1x512x64_2_1_1_2_0_0 2048 rfl rfl).symm j) = ix3 0 j d := funext fun a => Fin.ext (by
    match a with
    | ⟨0, _⟩ => exact av_rhs0 _ _
    | ⟨1, _⟩ => exact (av_rhs1 _ _).trans hk
    | ⟨2, _⟩ => exact av_rhs2 _ _)
  rw [el, er]
  refine congrArg₂ (· * ·) ?_ rfl
  show Ideal.div _ _ = Ideal.div _ _
  refine congrArg₂ Ideal.div (weight_at x0 x1 _ _ _ _ _ _ i j) ?_
  refine (keepSum_at _ _ _ _ _ _ i j).trans ?_
  exact Finset.sum_congr rfl fun j' _ => weight_at x0 x1 _ _ _ _ _ _ i j'

end Cert.KernelIdeal.Hand

end
-- ==== Proof.AttnArray.lean ====
/- The attention region's result array.  The grid is 32 heads by 4 blocks of 512 query rows.  At a point the query
   window holds rows 512·r … 512·r+511 of head g, the key and value windows hold all 2048 rows of head g, and the
   body writes rows 512·r … 512·r+511 of head g of the result.  An output row only needs its own query row and the
   head's keys and values, so every block is the restriction of ONE function of the three whole arrays: row (g, i) of
   the result is the softmax-attention row of query row (g, i) against head g's keys and values.  The 128 blocks
   tile the 32 × 2048 × 64 result. -/
import proofs.«152784_j41704132444382_1_alg».proof.Proof.AttnBody

set_option maxRecDepth 16384

noncomputable section

namespace Cert.KernelIdeal.Hand

open Cert.KernelIdeal Cert.KernelIdeal.Gen Idealize.ShloMosaic Idealize.ShloMosaic.TcCoe Idealize.ShloMosaic.ValueIdx AttnSpec
open Idealize.ShloMosaic.Pipeline (Dat)

/-- Softmax attention head by head on [32, 2048, 64] arrays. -/
def attnHeads (Q K V : S32x2048x64.Idx → EReal) : S32x2048x64.Idx → EReal :=
  fun i => attnRow (fun e => Q (ix3 ⟨(i 0).val, (i 0).isLt⟩ ⟨(i 1).val, (i 1).isLt⟩ e))
    (fun j e => K (ix3 ⟨(i 0).val, (i 0).isLt⟩ j e)) (fun j e => V (ix3 ⟨(i 0).val, (i 0).isLt⟩ j e)) ⟨(i 2).val, (i 2).isLt⟩

/-- The stored block at any of its indices (its leading coordinate is 0: the block has one head). -/
theorem attnBlock_at (x0 : Vec Ideal S1x512x64 .f32) (x1 x2 : Vec Ideal S1x2048x64 .f32) (y : S1x512x64.Idx) :
    out1_3 x0 x1 x2 y = attnRow (fun e => x0 (ix3 0 ⟨(y 1).val, (y 1).isLt⟩ e)) (fun j e => x1 (ix3 0 j e))
      (fun j e => x2 (ix3 0 j e)) ⟨(y 2).val, (y 2).isLt⟩ := by
  have e : y = ix3 0 ⟨(y 1).val, (y 1).isLt⟩ ⟨(y 2).val, (y 2).isLt⟩ := by
    funext a
    match a with
    | ⟨0, _⟩ => exact Fin.ext (by have h0 : (y 0).val < 1 := (y 0).isLt; show (y 0).val = 0; omega)
    | ⟨1, _⟩ => rfl
    | ⟨2, _⟩ => rfl
  rw [e]
  exact attnBlock_apply x0 x1 x2 _ _

/-- The index maps over the 128 grid points: the query window moves with the output window; the key and value
    windows follow its head and stay at row block 0; every window stays at feature block 0. -/
theorem attn_idx_facts : ∀ t : Fin cfg1.N, win1_0.index t (0 : Fin 3) = win1_3.index t (0 : Fin 3)
    ∧ win1_0.index t (1 : Fin 3) = win1_3.index t (1 : Fin 3)
    ∧ win1_0.index t (2 : Fin 3) = 0
    ∧ win1_1.index t (0 : Fin 3) = win1_3.index t (0 : Fin 3)
    ∧ win1_1.index t (1 : Fin 3) = 0
    ∧ win1_1.index t (2 : Fin 3) = 0
    ∧ win1_2.index t (0 : Fin 3) = win1_3.index t (0 : Fin 3)
    ∧ win1_2.index t (1 : Fin 3) = 0
    ∧ win1_2.index t (2 : Fin 3) = 0
    ∧ win1_3.index t (2 : Fin 3) = 0
    ∧ win1_3.index t (0 : Fin 3) ≤ 31 ∧ win1_3.index t (1 : Fin 3) ≤ 3 :=
  (by decide +kernel : ∀ t : Fin grid1.N, _)

/-- Every one of the 32 × 4 blocks is some point's. -/
theorem attn_idx_onto : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

variable (V : (c : Dev nD) → (b : Ref sig .tc) → Buf (Elt Ideal) ((c : Thread nD τ).loc b))

/-- What a point writes back is its block of `attnHeads` of the three arrays as the region finds them. -/
theorem attn_flushed (c : Dev nD) (t : Fin cfg1.N) :
    (dat1 V c).flushed 3 t = ((cfg1.win 3).blk t).view.read (Elt Ideal) (attnHeads (V c main_v39) (V c main_v43) (V c main_v47)) := by
  show (cfg1.win 3).cut (grid1.coords t) ((dat1 V c).after 3 t) = _
  rw [after1_3]
  obtain ⟨e0, e1, e2, e3, e4, e5, e6, e7, e8, e9, e10, e11⟩ := attn_idx_facts t
  funext y
  have hy0 : (y 0).val < 1 := (y 0).isLt
  have hy1 : (y 1).val < 512 := (y 1).isLt
  have hy2 : (y 2).val < 64 := (y 2).isLt
  refine (attnBlock_at (iblk1 V c 0 t) (iblk1 V c 1 t) (iblk1 V c 2 t) _).trans ?_
  show _ = attnHeads (V c main_v39) (V c main_v43) (V c main_v47) (((cfg1.win 3).blk t).view.emb y)
  unfold attnHeads
  have hq : (fun e : Fin 64 => iblk1 V c 0 t (ix3 0 ⟨(y 1).val, hy1⟩ e))
      = fun e => V c main_v39 (ix3 ⟨((((cfg1.win 3).blk t).view.emb y) 0).val, ((((cfg1.win 3).blk t).view.emb y) 0).isLt⟩
          ⟨((((cfg1.win 3).blk t).view.emb y) 1).val, ((((cfg1.win 3).blk t).view.emb y) 1).isLt⟩ e) := by
    funext e
    have he : e.val < 64 := e.isLt
    show V c main_v39 (((cfg1.win 0).blk t).view.emb (ix3 0 ⟨(y 1).val, hy1⟩ e)) = _
    refine congrArg (V c main_v39) (funext fun a => Fin.ext ?_)
    match a with
    | ⟨0, _⟩ => show win1_0.index t (0 : Fin 3) * 1 + 1 * 0 = win1_3.index t (0 : Fin 3) * 1 + 1 * (y 0).val; omega
    | ⟨1, _⟩ => show win1_0.index t (1 : Fin 3) * 512 + 1 * (y 1).val = win1_3.index t (1 : Fin 3) * 512 + 1 * (y 1).val; omega
    | ⟨2, _⟩ => show win1_0.index t (2 : Fin 3) * 64 + 1 * e.val = e.val; omega
  have hk : (fun (j : Fin 2048) (e : Fin 64) => iblk1 V c 1 t (ix3 0 j e))
      = fun j e => V c main_v43 (ix3 ⟨((((cfg1.win 3).blk t).view.emb y) 0).val, ((((cfg1.win 3).blk t).view.emb y) 0).isLt⟩ j e) := by
    funext j e
    have hj : j.val < 2048 := j.isLt
    have he : e.val < 64 := e.isLt
    show V c main_v43 (((cfg1.win 1).blk t).view.emb (ix3 0 j e)) = _
    refine congrArg (V c main_v43) (funext fun a => Fin.ext ?_)
    match a with
    | ⟨0, _⟩ => show win1_1.index t (0 : Fin 3) * 1 + 1 * 0 = win1_3.index t (0 : Fin 3) * 1 + 1 * (y 0).val; omega
    | ⟨1, _⟩ => show win1_1.index t (1 : Fin 3) * 2048 + 1 * j.val = j.val; omega
    | ⟨2, _⟩ => show win1_1.index t (2 : Fin 3) * 64 + 1 * e.val = e.val; omega
  have hv : (fun (j : Fin 2048) (e : Fin 64) => iblk1 V c 2 t (ix3 0 j e))
      = fun j e => V c main_v47 (ix3 ⟨((((cfg1.win 3).blk t).view.emb y) 0).val, ((((cfg1.win 3).blk t).view.emb y) 0).isLt⟩ j e) := by
    funext j e
    have hj : j.val < 2048 := j.isLt
    have he : e.val < 64 := e.isLt
    show V c main_v47 (((cfg1.win 2).blk t).view.emb (ix3 0 j e)) = _
    refine congrArg (V c main_v47) (funext fun a => Fin.ext ?_)
    match a with
    | ⟨0, _⟩ => show win1_2.index t (0 : Fin 3) * 1 + 1 * 0 = win1_3.index t (0 : Fin 3) * 1 + 1 * (y 0).val; omega
    | ⟨1, _⟩ => show win1_2.index t (1 : Fin 3) * 2048 + 1 * j.val = j.val; omega
    | ⟨2, _⟩ => show win1_2.index t (2 : Fin 3) * 64 + 1 * e.val = e.val; omega
  have hd : (⟨(y 2).val, hy2⟩ : Fin 64) = ⟨((((cfg1.win 3).blk t).view.emb y) 2).val, ((((cfg1.win 3).blk t).view.emb y) 2).isLt⟩ := by
    apply Fin.ext
    show (y 2).val = win1_3.index t (2 : Fin 3) * 64 + 1 * (y 2).val
    omega
  rw [hq, hk, hv, hd]

/-- An index of the result is in a point's block iff each coordinate is in the block's range on its axis. -/
theorem attn_mem_blk (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v48).slice (win1_3.rect t)).set ↔ _
  rw [View.set_slice_whole, Rect.mem_set_unit]
  exact Iff.rfl

/-- Every index (g, r, d) of the result lies in the block of the point at head g, row block r / 512. -/
theorem attn_cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := attn_idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [attn_mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The result array after the region: softmax attention head by head. -/
theorem attn_final (c : Dev nD) : (dat1 V c).arrAt 3 cfg1.N = attnHeads (V c main_v39) (V c main_v43) (V c main_v47) :=
  (dat1 V c).arrAt_eq_of_cover 3 (attnHeads (V c main_v39) (V c main_v43) (V c main_v47)) (fun t _ => attn_flushed V c t) attn_cover

end Cert.KernelIdeal.Hand

end
-- ==== Proof.OutBody.lean ====
/- The last region's body, read at an index.  A block of 512 rows of the attention output (all 1024 features)
   meets a block of 512 columns of the gated, transposed output weights, in one contraction into a zero accumulator;
   the block of 512 bias entries, a single row, is broadcast over the 512 rows and added.  So entry (p, q) of what the
   body stores is  Σ_k a[p,k] · b[k,q] + bias[0,q]. -/
import proofs.«152784_j41704132444382_1_alg».proof.Proof.QkvBody

noncomputable section

namespace Cert.KernelIdeal.Hand

open Cert.KernelIdeal Cert.KernelIdeal.Gen Idealize.ShloMosaic Idealize.ShloMosaic.TcCoe Idealize.ShloMosaic.ValueIdx

/-! The product's operand indices at an output index, axis by axis. -/
theorem out_lhs0 (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem out_lhs1 (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
theorem out_rhs0 (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
theorem out_rhs1 (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Entry (p, q) of the stored block: row p against column q, plus the bias of column q. -/
theorem outBlock_apply (x0 : Vec Ideal S512x1024 .f32) (x1 : Vec Ideal S1024x512 .f32) (x2 : Vec Ideal S1x512 .f32)
    (p : Fin 512) (q : Fin 512) :
    out2_3 x0 x1 x2 (ix2 p q) = (∑ k : Fin 1024, x0 (ix2 p k) * x1 (ix2 k q)) + x2 (ix2 0 q) := by
  unfold out2_3
  rw [View.canon_unit_zero zeros2]
  simp only [View.ld_unit_zero (S := S512x1024) zeros2, View.ld_unit_zero (S := S1024x512) zeros2, View.ld_unit_zero (S := S1x512) zeros2]
  unfold k2_pay1
  simp only [shapeCast_self]
  show FloatOps.matmul dot_S512x1024_S1024x512_S512x512_1_0_0_1_n_n none _ _ _ (ix2 p q) + broadcastTo S512x512 _ _ (ix2 p q) = _
  refine congrArg₂ (· + ·) ?_ ?_
  · refine (Ideal.matmul_constant_zero_apply dot_S512x1024_S1024x512_S512x512_1_0_0_1_n_n none _ _ (ix2 p q)).trans ?_
    rw [← Equiv.sum_comp (contrEquiv1 dot_S512x1024_S1024x512_S512x512_1_0_0_1_n_n 1024 rfl rfl).symm]
    refine Finset.sum_congr rfl fun k _ => ?_
    have hk := contrEquiv1_symm_val dot_S512x1024_S1024x512_S512x512_1_0_0_1_n_n 1024 rfl rfl k
    have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
      match a with
      | ⟨0, _⟩ => exact out_lhs0 _ _
      | ⟨1, _⟩ => exact (out_lhs1 _ _).trans hk)
    have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
      match a with
      | ⟨0, _⟩ => exact (out_rhs0 _ _).trans hk
      | ⟨1, _⟩ => exact out_rhs1 _ _)
    rw [el, er]
    rfl
  · refine broadcastTo_apply _ _ (ix2 p q) (ix2 0 q) fun a => ?_
    match a with
    | ⟨0, _⟩ => rfl
    | ⟨1, _⟩ => rfl

end Cert.KernelIdeal.Hand

end
-- ==== Proof.OutArray.lean ====
/- The last region's result array.  The grid is 8 row blocks by 2 column blocks.  At a point the left window
   holds rows 512·r … 512·r+511 of the attention output, the right window columns 512·s … 512·s+511 of the
   weights, the bias window entries 512·s … 512·s+511 of the one bias row, and the body writes block (r, s).
   Every block is the restriction of one function of the three whole arrays — entry (i, o) is
   Σ_k a[i,k] · b[k,o] + bias[0,o] — and the 16 blocks tile the 4096 × 1024 result. -/
import proofs.«152784_j41704132444382_1_alg».proof.Proof.OutBody

set_option maxRecDepth 16384

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

/-- Rows of `a` against columns of `b` over the 1024 shared features, plus the bias row's entry. -/
def outRows (a : S4096x1024.Idx → EReal) (b : S1024x1024.Idx → EReal) (bias : S1x1024.Idx → EReal) : S4096x1024.Idx → EReal :=
  fun i => (∑ k : Fin 1024, a (ix2 ⟨(i 0).val, (i 0).isLt⟩ k) * b (ix2 k ⟨(i 1).val, (i 1).isLt⟩)) + bias (ix2 0 ⟨(i 1).val, (i 1).isLt⟩)

/-- The stored block at any of its indices, the coordinates read off the index. -/
theorem outBlock_at (x0 : Vec Ideal S512x1024 .f32) (x1 : Vec Ideal S1024x512 .f32) (x2 : Vec Ideal S1x512 .f32) (j : S512x512.Idx) :
    out2_3 x0 x1 x2 j = (∑ k : Fin 1024, x0 (ix2 ⟨(j 0).val, (j 0).isLt⟩ k) * x1 (ix2 k ⟨(j 1).val, (j 1).isLt⟩)) + x2 (ix2 0 ⟨(j 1).val, (j 1).isLt⟩) := by
  have e : j = ix2 ⟨(j 0).val, (j 0).isLt⟩ ⟨(j 1).val, (j 1).isLt⟩ := eq_ix2 j
  rw [e]
  exact outBlock_apply x0 x1 x2 _ _

/-- The index maps over the 16 grid points: the left window follows the output's row block at feature block 0; the
    right window and the bias window sit at row block 0 and follow the output's column block. -/
theorem out_idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) ≤ 7 ∧ win2_3.index t (1 : Fin 2) ≤ 1 :=
  (by decide +kernel : ∀ t : Fin grid2.N, _)

/-- Every one of the 8 × 2 blocks is some point's. -/
theorem out_idx_onto : ∀ (q0 : Fin 8) (q1 : Fin 2), ∃ t : Fin cfg2.N, win2_3.index t = ![q0.val, q1.val] :=
  (by decide +kernel : ∀ (q0 : Fin 8) (q1 : Fin 2), ∃ t : Fin grid2.N, win2_3.index t = ![q0.val, q1.val])

variable (V : (c : Dev nD) → (b : Ref sig .tc) → Buf (Elt Ideal) ((c : Thread nD τ).loc b))

/-- What a point writes back is its block of `outRows` of the three arrays as the region finds them. -/
theorem out_flushed (c : Dev nD) (t : Fin cfg2.N) :
    (dat2 V c).flushed 3 t = ((cfg2.win 3).blk t).view.read (Elt Ideal) (outRows (V c main_v51) (V c main_v21) (V c main_v32)) := by
  show (cfg2.win 3).cut (grid2.coords t) ((dat2 V c).after 3 t) = _
  rw [after2_3]
  obtain ⟨e0, e1, e2, e3, e4, e5, e6, e7⟩ := out_idx_facts t
  funext j
  have hj0 : (j 0).val < 512 := (j 0).isLt
  have hj1 : (j 1).val < 512 := (j 1).isLt
  refine (outBlock_at (iblk2 V c 0 t) (iblk2 V c 1 t) (iblk2 V c 2 t) _).trans ?_
  show _ = outRows (V c main_v51) (V c main_v21) (V c main_v32) (((cfg2.win 3).blk t).view.emb j)
  unfold outRows
  have hb : iblk2 V c 2 t (ix2 0 ⟨(j 1).val, hj1⟩)
      = V c main_v32 (ix2 0 ⟨((((cfg2.win 3).blk t).view.emb j) 1).val, ((((cfg2.win 3).blk t).view.emb j) 1).isLt⟩) := by
    show V c main_v32 (((cfg2.win 2).blk t).view.emb (ix2 0 ⟨(j 1).val, hj1⟩)) = _
    refine congrArg (V c main_v32) (funext fun a => Fin.ext ?_)
    match a with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega
  refine congrArg₂ (· + ·) (Finset.sum_congr rfl fun k _ => ?_) hb
  have hk : k.val < 1024 := k.isLt
  have h0 : iblk2 V c 0 t (ix2 ⟨(j 0).val, hj0⟩ k)
      = V c main_v51 (ix2 ⟨((((cfg2.win 3).blk t).view.emb j) 0).val, ((((cfg2.win 3).blk t).view.emb j) 0).isLt⟩ k) := by
    show V c main_v51 (((cfg2.win 0).blk t).view.emb (ix2 ⟨(j 0).val, hj0⟩ k)) = _
    refine congrArg (V c main_v51) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  have h1 : iblk2 V c 1 t (ix2 k ⟨(j 1).val, hj1⟩)
      = V c main_v21 (ix2 k ⟨((((cfg2.win 3).blk t).view.emb j) 1).val, ((((cfg2.win 3).blk t).view.emb j) 1).isLt⟩) := by
    show V c main_v21 (((cfg2.win 1).blk t).view.emb (ix2 k ⟨(j 1).val, hj1⟩)) = _
    refine congrArg (V c main_v21) (funext fun a => Fin.ext ?_)
    match a with
    | ⟨0, _⟩ => show win2_1.index t (0 : Fin 2) * 1024 + 1 * k.val = k.val; omega
    | ⟨1, _⟩ => show win2_1.index t (1 : Fin 2) * 512 + 1 * (j 1).val = win2_3.index t (1 : Fin 2) * 512 + 1 * (j 1).val; omega
  exact congrArg₂ (· * ·) h0 h1

/-- An index of the result is in a point's block iff each coordinate is in the block's range on its axis. -/
theorem out_mem_blk (t : Fin cfg2.N) (i : S4096x1024.Idx) :
    i ∈ ((cfg2.win 3).blk t).view.set ↔ ∀ a : Fin 2, win2_3.index t a * S512x512.size a ≤ (i a).val ∧ (i a).val < win2_3.index t a * S512x512.size a + S512x512.size a := by
  show i ∈ ((View.whole main_v52).slice (win2_3.rect t)).set ↔ _
  rw [View.set_slice_whole, Rect.mem_set_unit]
  exact Iff.rfl

/-- Every index of the result lies in the block of the point at row block i₀ / 512, column block i₁ / 512. -/
theorem out_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := out_idx_onto ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [out_mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The result array after the region. -/
theorem out_final (c : Dev nD) : (dat2 V c).arrAt 3 cfg2.N = outRows (V c main_v51) (V c main_v21) (V c main_v32) :=
  (dat2 V c).arrAt_eq_of_cover 3 (outRows (V c main_v51) (V c main_v21) (V c main_v32)) (fun t _ => out_flushed V c t) out_cover

end Cert.KernelIdeal.Hand

end
-- ==== Proof.RefAttn.lean ====
/- The reference's attention, read one output row at a time.  Its stages from the two batched products through the
   softmax are each read at an index by the generated stage lemmas; the row maximum — a reduce by `max` from −∞ over
   the key axis, then one more `max` with −∞, which changes nothing — is read here by hand as a fold.  Composed, entry
   (b, h, r, d) of the attention output is one row of softmax attention (`AttnSpec.attnRow`) of query row (b, h, r)
   against the keys and values of head (b, h): the same function the kernel's body computes. -/
import proofs.«152784_j41704132444382_1_alg».proof.Proof.Gen.ReferenceIdeal.Read
import proofs.«152784_j41704132444382_1_alg».proof.Proof.AttnSpec
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx AttnSpec

variable (x0 : (⟨S2x2048x1024, .f32⟩ : BufTy).Contents (Elt Ideal)) (x1 x2 : (⟨S3072x1024, .f32⟩ : BufTy).Contents (Elt Ideal))

/-- The key axis of the scores reduces away to the [2, 16, 2048] rows. -/
theorem keysReduce : S2x16x2048x2048.Reduces [3] S2x16x2048 := by decide

/-- The query, key and value rows of head (b, h), as the reference lays them out. -/
abbrev qRow (b : Fin 2) (h : Fin 16) (r : Fin 2048) : Fin 64 → EReal := fun e => val_main_v14 (F := Ideal) x0 x1 x2 (ix4 b h r e)
abbrev kRows (b : Fin 2) (h : Fin 16) : Fin 2048 → Fin 64 → EReal := fun j e => val_main_v17 (F := Ideal) x0 x1 x2 (ix4 b h j e)
abbrev vRows (b : Fin 2) (h : Fin 16) : Fin 2048 → Fin 64 → EReal := fun j e => val_main_v20 (F := Ideal) x0 x1 x2 (ix4 b h j e)

/-- The scaled scores. -/
theorem ref_scores (b : Fin 2) (h : Fin 16) (r j : Fin 2048) :
    val_main_v23 (F := Ideal) x0 x1 x2 (ix4 b h r j) = scores (qRow x0 x1 x2 b h r) (kRows x0 x1 x2 b h) j := by
  rw [val_main_v23_apply, val_main_v21_apply, val_main_v22_apply, val_main_cst_2_apply]
  have hl : ∀ k : Fin 64, lidx_main_v21 (ix4 b h r j) k = ix4 b h r k := fun k => funext fun a => Fin.ext (by match a with | ⟨0, _⟩ => rfl | ⟨1, _⟩ => rfl | ⟨2, _⟩ => rfl | ⟨3, _⟩ => rfl)
  have hr : ∀ k : Fin 64, ridx_main_v21 (ix4 b h r j) k = ix4 b h j k := fun k => funext fun a => Fin.ext (by match a with | ⟨0, _⟩ => rfl | ⟨1, _⟩ => rfl | ⟨2, _⟩ => rfl | ⟨3, _⟩ => rfl)
  simp only [hl, hr]
  rfl

/-- The row maximum: the reduce from −∞, then the extra `max` with −∞. -/
theorem ref_rowMax (b : Fin 2) (h : Fin 16) (r : Fin 2048) :
    val_main_v26 (F := Ideal) x0 x1 x2 (ix3 b h r) = rowMax (scores (qRow x0 x1 x2 b h r) (kRows x0 x1 x2 b h)) := by
  rw [val_main_v26_apply, val_main_v25_apply, val_main_cst_4_apply]
  have h24 : val_main_v24 (F := Ideal) x0 x1 x2 (ix3 b h r) = rowMax (scores (qRow x0 x1 x2 b h r) (kRows x0 x1 x2 b h)) := by
    unfold val_main_v24
    refine (Host.reduce_eq_fold_single (FloatOps.maximumf (F := Ideal) (φ := .f32))
      (val_main_v23 (F := Ideal) x0 x1 x2 : S2x16x2048x2048.Idx → EReal) (val_main_cst_3 (F := Ideal) : S_.Idx → EReal)
      reducesTo_S2x16x2048x2048_S2x16x2048_d3 keysReduce h_S_ (ix3 b h r)).trans ?_
    unfold rowMax
    have hf : ((val_main_v23 (F := Ideal) x0 x1 x2 : S2x16x2048x2048.Idx → EReal) ∘ keysReduce.lift (ix3 b h r))
        = scores (qRow x0 x1 x2 b h r) (kRows x0 x1 x2 b h) := by
      funext j
      refine Eq.trans (congrArg (val_main_v23 (F := Ideal) x0 x1 x2) (funext fun a => Fin.ext ?_)) (ref_scores x0 x1 x2 b h r j)
      match a with | ⟨0, _⟩ => rfl | ⟨1, _⟩ => rfl | ⟨2, _⟩ => rfl | ⟨3, _⟩ => rfl
    rw [hf]
    rfl
  rw [h24]
  show max (Ideal.ofBits .f32 0xFF800000#32) (rowMax _) = rowMax _
  refine max_eq_right ?_
  unfold rowMax
  exact (Finset.le_fold_max _).mpr (Or.inl le_rfl)

/-- The unnormalised weights. -/
theorem ref_weight (b : Fin 2) (h : Fin 16) (r j : Fin 2048) :
    val_main_v30 (F := Ideal) x0 x1 x2 (ix4 b h r j) = weight (scores (qRow x0 x1 x2 b h r) (kRows x0 x1 x2 b h)) j := by
  rw [val_main_v30_apply, val_main_v29_apply, val_main_v28_apply, val_main_v27_apply]
  have hi : idx_main_v27 (idx_main_v28 (ix4 b h r j)) = ix3 b h r := funext fun a => Fin.ext (by match a with | ⟨0, _⟩ => rfl | ⟨1, _⟩ => rfl | ⟨2, _⟩ => rfl)
  rw [hi, ref_rowMax, ref_scores]
  rfl

/-- The row's normaliser: zero plus the sum of the row's weights. -/
theorem ref_rowSum (b : Fin 2) (h : Fin 16) (r j : Fin 2048) :
    val_main_v33 (F := Ideal) x0 x1 x2 (ix4 b h r j) = ∑ j' : Fin 2048, weight (scores (qRow x0 x1 x2 b h r) (kRows x0 x1 x2 b h)) j' := by
  rw [val_main_v33_apply, val_main_v32_apply]
  have hi : idx_main_v32 (idx_main_v33 (ix4 b h r j)) = ix3 b h r := funext fun a => Fin.ext (by match a with | ⟨0, _⟩ => rfl | ⟨1, _⟩ => rfl | ⟨2, _⟩ => rfl)
  rw [hi, val_main_v31_apply, val_main_cst_5_apply]
  have hk : ∀ k : Fin 2048, idx_main_v31 (ix3 b h r) k = ix4 b h r k := fun k => funext fun a => Fin.ext (by match a with | ⟨0, _⟩ => rfl | ⟨1, _⟩ => rfl | ⟨2, _⟩ => rfl | ⟨3, _⟩ => rfl)
  simp only [hk, ref_weight]
  show Ideal.ofBits .f32 0x00000000#32 + _ = _
  rw [Ideal.ofBits_zero_f32, zero_add]

/-- Entry (b, h, r, d) of the reference's attention output is one row of softmax attention. -/
theorem ref_attn (b : Fin 2) (h : Fin 16) (r : Fin 2048) (d : Fin 64) :
    val_main_v35 (F := Ideal) x0 x1 x2 (ix4 b h r d) = attnRow (qRow x0 x1 x2 b h r) (kRows x0 x1 x2 b h) (vRows x0 x1 x2 b h) d := by
  rw [val_main_v35_apply]
  have hl : ∀ k : Fin 2048, lidx_main_v35 (ix4 b h r d) k = ix4 b h r k := fun k => funext fun a => Fin.ext (by match a with | ⟨0, _⟩ => rfl | ⟨1, _⟩ => rfl | ⟨2, _⟩ => rfl | ⟨3, _⟩ => rfl)
  have hr : ∀ k : Fin 2048, ridx_main_v35 (ix4 b h r d) k = ix4 b h k d := fun k => funext fun a => Fin.ext (by match a with | ⟨0, _⟩ => rfl | ⟨1, _⟩ => rfl | ⟨2, _⟩ => rfl | ⟨3, _⟩ => rfl)
  simp only [hl, hr, val_main_v34_apply, ref_weight, ref_rowSum]
  rfl

end Cert.ReferenceIdeal.Hand

end
-- ==== Proof.LibReshape.lean ====
/- Reshapes compose.  A reshape re-indexes an array by row-major position, so reshaping to an intermediate
   shape and then to a third one reads the same element as reshaping to the third shape directly: the
   intermediate shape drops out.  Generic in the three shapes and in the element type. -/
import Idealize.ShloMosaic.Lib.Pipeline.Value

namespace ReshapeLib

open Idealize.ShloMosaic

/-- Two reshapes in a row are one reshape: both steps keep the row-major position of every element. -/
theorem shapeCast_comp {s t u : Shape} {α : Type} (v : s.Idx → α) (h : s.ShapeCasts t) (h' : t.ShapeCasts u)
    (h'' : s.ShapeCasts u) : shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- Reshaping away and back to the starting shape changes nothing (the special case the library states), kept
    here under the same name scheme for use beside `shapeCast_comp`. -/
theorem shapeCast_back {s t : Shape} {α : Type} (v : s.Idx → α) (h : s.ShapeCasts t) (h' : t.ShapeCasts s) :
    shapeCast s (shapeCast t v h) h' = v := shapeCast_shapeCast v h h'

end ReshapeLib
-- ==== Proof.Bridge.lean ====
/- The two programs, stage against stage.  The kernel program keeps every intermediate array in a flatter layout
   than the reference — 4096 rows for [2, 2048], 32 heads for [2, 16] — so each kernel array is the RESHAPE of the
   reference's array at the same stage:
     · the projection region's rows-by-columns product of the reshaped activations and the transposed gated weights
       is the reshape of the reference's contraction (same sum over the 1024 features, the row split as
       (row / 2048, row % 2048));
     · slicing, re-laying and reshaping that array head by head gives the reshapes of the reference's query, key and
       value arrays (the operations are the same; two reshapes in a row are one);
     · softmax attention head by head on those is the reshape of the reference's attention output (head g is
       (g / 16, g % 16); each row is the same attention row);
     · re-laid to rows it is the reshape of the reference's re-laid attention output;
     · the last region's product plus bias row is the reshape of the reference's result, and reshaping that back is
       the reference's result itself. -/
import proofs.«152784_j41704132444382_1_alg».proof.Proof.QkvArray
import proofs.«152784_j41704132444382_1_alg».proof.Proof.AttnArray
import proofs.«152784_j41704132444382_1_alg».proof.Proof.OutArray
import proofs.«152784_j41704132444382_1_alg».proof.Proof.RefAttn
import proofs.«152784_j41704132444382_1_alg».proof.Proof.LibReshape
import Idealize.ShloMosaic.Lib.Pipeline.Value

noncomputable section

namespace Cert.Bridge

open Idealize.ShloMosaic Idealize.ShloMosaic.TcCoe Idealize.ShloMosaic.ValueIdx AttnSpec
open Cert.ReferenceIdeal.Read Cert.ReferenceIdeal.Hand Cert.KernelIdeal.Hand

/-- The projection: rows by columns of the reshaped operands is the reshape of the reference's contraction. -/
theorem bridge_qkv (x0 : (⟨Cert.ReferenceIdeal.S2x2048x1024, .f32⟩ : BufTy).Contents (Elt Ideal)) (x1 x2 : (⟨Cert.ReferenceIdeal.S3072x1024, .f32⟩ : BufTy).Contents (Elt Ideal))
    (h1 : Cert.ReferenceIdeal.S2x2048x1024.ShapeCasts Cert.KernelIdeal.S4096x1024) (h2 : Cert.ReferenceIdeal.S3072x1024.Transposes [1, 0] Cert.KernelIdeal.S1024x3072)
    (h3 : Cert.ReferenceIdeal.S2x2048x3072.ShapeCasts Cert.KernelIdeal.S4096x3072) :
    qkvRows (shapeCast Cert.KernelIdeal.S4096x1024 x0 h1) (transpose Cert.KernelIdeal.S1024x3072 [1, 0] (val_main_v9 (F := Ideal) x1 x2) h2)
      = shapeCast Cert.KernelIdeal.S4096x3072 (val_main_v10 (F := Ideal) x0 x1 x2) h3 := by
  funext i
  have hi0 : (i 0).val < 4096 := (i 0).isLt
  have hi1 : (i 1).val < 3072 := (i 1).isLt
  refine Eq.trans ?_ (shapeCast_apply (val_main_v10 (F := Ideal) x0 x1 x2) h3 i
    (ix3 (⟨(i 0).val / 2048, by omega⟩ : Fin 2) (⟨(i 0).val % 2048, by omega⟩ : Fin 2048) (⟨(i 1).val, hi1⟩ : Fin 3072)) ?_).symm
  · rw [val_main_v10_apply]
    show (∑ k : Fin 1024, _ * _) = _
    refine Finset.sum_congr rfl fun k _ => ?_
    have hk : k.val < 1024 := k.isLt
    refine congrArg₂ (· * ·) ?_ ?_
    · refine shapeCast_apply x0 h1 _ _ ?_
      rw [Shape.rowMajor_val_three, Shape.rowMajor_val_two]
      show ((i 0).val / 2048 * 2048 + (i 0).val % 2048) * 1024 + k.val = (i 0).val * 1024 + k.val
      omega
    · refine transpose_apply [1, 0] (val_main_v9 (F := Ideal) x1 x2) h2 _ _ fun bb => ?_
      match bb with
      | ⟨0, _⟩ => rfl
      | ⟨1, _⟩ => rfl
  · rw [Shape.rowMajor_val_three, Shape.rowMajor_val_two]
    show ((i 0).val / 2048 * 2048 + (i 0).val % 2048) * 3072 + (i 1).val = (i 0).val * 3072 + (i 1).val
    omega

/-- The query, key and value arrays: the same slice, re-lay and transposition on both sides, the two leading reshapes
    merged into the reference's one. -/
theorem bridge_head0 (x0 : (⟨Cert.ReferenceIdeal.S2x2048x1024, .f32⟩ : BufTy).Contents (Elt Ideal)) (x1 x2 : (⟨Cert.ReferenceIdeal.S3072x1024, .f32⟩ : BufTy).Contents (Elt Ideal))
    (hA : Cert.ReferenceIdeal.S2x2048x3072.ShapeCasts Cert.KernelIdeal.S4096x3072) (hB : Cert.KernelIdeal.S4096x3072.ShapeCasts Cert.KernelIdeal.S2x2048x3x16x64)
    (hC : Cert.KernelIdeal.S2x2048x3x16x64.Slices ![0, 0, 0, 0, 0] Cert.KernelIdeal.S2x2048x1x16x64) (hD : Cert.KernelIdeal.S2x2048x1x16x64.ShapeCasts Cert.KernelIdeal.S2x2048x16x64)
    (hE : Cert.KernelIdeal.S2x2048x16x64.Transposes [0, 2, 1, 3] Cert.KernelIdeal.S2x16x2048x64) (hF : Cert.KernelIdeal.S2x16x2048x64.ShapeCasts Cert.KernelIdeal.S32x2048x64)
    (hG : Cert.ReferenceIdeal.S2x16x2048x64.ShapeCasts Cert.KernelIdeal.S32x2048x64) :
    shapeCast Cert.KernelIdeal.S32x2048x64 (transpose Cert.KernelIdeal.S2x16x2048x64 [0, 2, 1, 3] (shapeCast Cert.KernelIdeal.S2x2048x16x64
        (extractStridedSlice Cert.KernelIdeal.S2x2048x1x16x64 ![0, 0, 0, 0, 0] (shapeCast Cert.KernelIdeal.S2x2048x3x16x64
          (shapeCast Cert.KernelIdeal.S4096x3072 (val_main_v10 (F := Ideal) x0 x1 x2) hA) hB) hC) hD) hE) hF
      = shapeCast Cert.KernelIdeal.S32x2048x64 (val_main_v14 (F := Ideal) x0 x1 x2) hG := by
  rw [ReshapeLib.shapeCast_comp _ hA hB Cert.ReferenceIdeal.Gen.shapeCasts_S2x2048x3072_S2x2048x3x16x64]
  rfl

theorem bridge_head1 (x0 : (⟨Cert.ReferenceIdeal.S2x2048x1024, .f32⟩ : BufTy).Contents (Elt Ideal)) (x1 x2 : (⟨Cert.ReferenceIdeal.S3072x1024, .f32⟩ : BufTy).Contents (Elt Ideal))
    (hA : Cert.ReferenceIdeal.S2x2048x3072.ShapeCasts Cert.KernelIdeal.S4096x3072) (hB : Cert.KernelIdeal.S4096x3072.ShapeCasts Cert.KernelIdeal.S2x2048x3x16x64)
    (hC : Cert.KernelIdeal.S2x2048x3x16x64.Slices ![0, 0, 1, 0, 0] Cert.KernelIdeal.S2x2048x1x16x64) (hD : Cert.KernelIdeal.S2x2048x1x16x64.ShapeCasts Cert.KernelIdeal.S2x2048x16x64)
    (hE : Cert.KernelIdeal.S2x2048x16x64.Transposes [0, 2, 1, 3] Cert.KernelIdeal.S2x16x2048x64) (hF : Cert.KernelIdeal.S2x16x2048x64.ShapeCasts Cert.KernelIdeal.S32x2048x64)
    (hG : Cert.ReferenceIdeal.S2x16x2048x64.ShapeCasts Cert.KernelIdeal.S32x2048x64) :
    shapeCast Cert.KernelIdeal.S32x2048x64 (transpose Cert.KernelIdeal.S2x16x2048x64 [0, 2, 1, 3] (shapeCast Cert.KernelIdeal.S2x2048x16x64
        (extractStridedSlice Cert.KernelIdeal.S2x2048x1x16x64 ![0, 0, 1, 0, 0] (shapeCast Cert.KernelIdeal.S2x2048x3x16x64
          (shapeCast Cert.KernelIdeal.S4096x3072 (val_main_v10 (F := Ideal) x0 x1 x2) hA) hB) hC) hD) hE) hF
      = shapeCast Cert.KernelIdeal.S32x2048x64 (val_main_v17 (F := Ideal) x0 x1 x2) hG := by
  rw [ReshapeLib.shapeCast_comp _ hA hB Cert.ReferenceIdeal.Gen.shapeCasts_S2x2048x3072_S2x2048x3x16x64]
  rfl

theorem bridge_head2 (x0 : (⟨Cert.ReferenceIdeal.S2x2048x1024, .f32⟩ : BufTy).Contents (Elt Ideal)) (x1 x2 : (⟨Cert.ReferenceIdeal.S3072x1024, .f32⟩ : BufTy).Contents (Elt Ideal))
    (hA : Cert.ReferenceIdeal.S2x2048x3072.ShapeCasts Cert.KernelIdeal.S4096x3072) (hB : Cert.KernelIdeal.S4096x3072.ShapeCasts Cert.KernelIdeal.S2x2048x3x16x64)
    (hC : Cert.KernelIdeal.S2x2048x3x16x64.Slices ![0, 0, 2, 0, 0] Cert.KernelIdeal.S2x2048x1x16x64) (hD : Cert.KernelIdeal.S2x2048x1x16x64.ShapeCasts Cert.KernelIdeal.S2x2048x16x64)
    (hE : Cert.KernelIdeal.S2x2048x16x64.Transposes [0, 2, 1, 3] Cert.KernelIdeal.S2x16x2048x64) (hF : Cert.KernelIdeal.S2x16x2048x64.ShapeCasts Cert.KernelIdeal.S32x2048x64)
    (hG : Cert.ReferenceIdeal.S2x16x2048x64.ShapeCasts Cert.KernelIdeal.S32x2048x64) :
    shapeCast Cert.KernelIdeal.S32x2048x64 (transpose Cert.KernelIdeal.S2x16x2048x64 [0, 2, 1, 3] (shapeCast Cert.KernelIdeal.S2x2048x16x64
        (extractStridedSlice Cert.KernelIdeal.S2x2048x1x16x64 ![0, 0, 2, 0, 0] (shapeCast Cert.KernelIdeal.S2x2048x3x16x64
          (shapeCast Cert.KernelIdeal.S4096x3072 (val_main_v10 (F := Ideal) x0 x1 x2) hA) hB) hC) hD) hE) hF
      = shapeCast Cert.KernelIdeal.S32x2048x64 (val_main_v20 (F := Ideal) x0 x1 x2) hG := by
  rw [ReshapeLib.shapeCast_comp _ hA hB Cert.ReferenceIdeal.Gen.shapeCasts_S2x2048x3072_S2x2048x3x16x64]
  rfl

/-- Attention rows only depend on their three row families. -/
theorem attnRow_congr {q q' : Fin 64 → EReal} {Kk Kk' V V' : Fin 2048 → Fin 64 → EReal} (d : Fin 64)
    (hq : q = q') (hk : Kk = Kk') (hv : V = V') : attnRow q Kk V d = attnRow q' Kk' V' d := by
  subst hq hk hv; rfl

/-- Attention head by head on the reshaped arrays is the reshape of the reference's attention output. -/
theorem bridge_attn (x0 : (⟨Cert.ReferenceIdeal.S2x2048x1024, .f32⟩ : BufTy).Contents (Elt Ideal)) (x1 x2 : (⟨Cert.ReferenceIdeal.S3072x1024, .f32⟩ : BufTy).Contents (Elt Ideal))
    (hq hk hv ho : Cert.ReferenceIdeal.S2x16x2048x64.ShapeCasts Cert.KernelIdeal.S32x2048x64) :
    attnHeads (shapeCast Cert.KernelIdeal.S32x2048x64 (val_main_v14 (F := Ideal) x0 x1 x2) hq)
        (shapeCast Cert.KernelIdeal.S32x2048x64 (val_main_v17 (F := Ideal) x0 x1 x2) hk)
        (shapeCast Cert.KernelIdeal.S32x2048x64 (val_main_v20 (F := Ideal) x0 x1 x2) hv)
      = shapeCast Cert.KernelIdeal.S32x2048x64 (val_main_v35 (F := Ideal) x0 x1 x2) ho := by
  funext i
  have hi0 : (i 0).val < 32 := (i 0).isLt
  have hi1 : (i 1).val < 2048 := (i 1).isLt
  have hi2 : (i 2).val < 64 := (i 2).isLt
  have hb : (i 0).val / 16 < 2 := by omega
  have hh : (i 0).val % 16 < 16 := by omega
  refine Eq.trans ?_ (shapeCast_apply (val_main_v35 (F := Ideal) x0 x1 x2) ho i
    (ix4 (⟨(i 0).val / 16, hb⟩ : Fin 2) (⟨(i 0).val % 16, hh⟩ : Fin 16) (⟨(i 1).val, hi1⟩ : Fin 2048) (⟨(i 2).val, hi2⟩ : Fin 64)) ?_).symm
  · rw [ref_attn]
    show attnRow _ _ _ _ = _
    refine attnRow_congr _ ?_ ?_ ?_
    · funext e
      have he : e.val < 64 := e.isLt
      refine shapeCast_apply (val_main_v14 (F := Ideal) x0 x1 x2) hq _ (ix4 (⟨(i 0).val / 16, hb⟩ : Fin 2) (⟨(i 0).val % 16, hh⟩ : Fin 16) (⟨(i 1).val, hi1⟩ : Fin 2048) e) ?_
      rw [Shape.rowMajor_val_four, Shape.rowMajor_val_three]
      show (((i 0).val / 16 * 16 + (i 0).val % 16) * 2048 + (i 1).val) * 64 + e.val = ((i 0).val * 2048 + (i 1).val) * 64 + e.val
      omega
    · funext j e
      have hj : j.val < 2048 := j.isLt
      have he : e.val < 64 := e.isLt
      refine shapeCast_apply (val_main_v17 (F := Ideal) x0 x1 x2) hk _ (ix4 (⟨(i 0).val / 16, hb⟩ : Fin 2) (⟨(i 0).val % 16, hh⟩ : Fin 16) j e) ?_
      rw [Shape.rowMajor_val_four, Shape.rowMajor_val_three]
      show (((i 0).val / 16 * 16 + (i 0).val % 16) * 2048 + j.val) * 64 + e.val = ((i 0).val * 2048 + j.val) * 64 + e.val
      omega
    · funext j e
      have hj : j.val < 2048 := j.isLt
      have he : e.val < 64 := e.isLt
      refine shapeCast_apply (val_main_v20 (F := Ideal) x0 x1 x2) hv _ (ix4 (⟨(i 0).val / 16, hb⟩ : Fin 2) (⟨(i 0).val % 16, hh⟩ : Fin 16) j e) ?_
      rw [Shape.rowMajor_val_four, Shape.rowMajor_val_three]
      show (((i 0).val / 16 * 16 + (i 0).val % 16) * 2048 + j.val) * 64 + e.val = ((i 0).val * 2048 + j.val) * 64 + e.val
      omega
  · rw [Shape.rowMajor_val_four, Shape.rowMajor_val_three]
    show (((i 0).val / 16 * 16 + (i 0).val % 16) * 2048 + (i 1).val) * 64 + (i 2).val = ((i 0).val * 2048 + (i 1).val) * 64 + (i 2).val
    omega

/-- The attention output re-laid to rows: reshaping to heads and back cancels, and the reference's own reshape to
    [2, 2048, 1024] merges into the reshape to rows. -/
theorem bridge_attnRows (x0 : (⟨Cert.ReferenceIdeal.S2x2048x1024, .f32⟩ : BufTy).Contents (Elt Ideal)) (x1 x2 : (⟨Cert.ReferenceIdeal.S3072x1024, .f32⟩ : BufTy).Contents (Elt Ideal))
    (hA : Cert.ReferenceIdeal.S2x16x2048x64.ShapeCasts Cert.KernelIdeal.S32x2048x64) (hB : Cert.KernelIdeal.S32x2048x64.ShapeCasts Cert.KernelIdeal.S2x16x2048x64)
    (hT : Cert.KernelIdeal.S2x16x2048x64.Transposes [0, 2, 1, 3] Cert.KernelIdeal.S2x2048x16x64) (hC : Cert.KernelIdeal.S2x2048x16x64.ShapeCasts Cert.KernelIdeal.S4096x1024)
    (hD : Cert.ReferenceIdeal.S2x2048x1024.ShapeCasts Cert.KernelIdeal.S4096x1024) :
    shapeCast Cert.KernelIdeal.S4096x1024 (transpose Cert.KernelIdeal.S2x2048x16x64 [0, 2, 1, 3] (shapeCast Cert.KernelIdeal.S2x16x2048x64
        (shapeCast Cert.KernelIdeal.S32x2048x64 (val_main_v35 (F := Ideal) x0 x1 x2) hA) hB) hT) hC
      = shapeCast Cert.KernelIdeal.S4096x1024 (val_main_v37 (F := Ideal) x0 x1 x2) hD := by
  rw [ReshapeLib.shapeCast_back _ hA hB]
  exact (ReshapeLib.shapeCast_comp (val_main_v36 (F := Ideal) x0 x1 x2) Cert.ReferenceIdeal.Gen.shapeCasts_S2x2048x16x64_S2x2048x1024 hD hC).symm

/-- The output projection: rows by columns plus the bias row, on the reshaped operands, is the reshape of the
    reference's result. -/
theorem bridge_out (x0 : (⟨Cert.ReferenceIdeal.S2x2048x1024, .f32⟩ : BufTy).Contents (Elt Ideal)) (x1 x2 : (⟨Cert.ReferenceIdeal.S3072x1024, .f32⟩ : BufTy).Contents (Elt Ideal)) (x3 x4 : (⟨Cert.ReferenceIdeal.S1024x1024, .f32⟩ : BufTy).Contents (Elt Ideal)) (x5 x6 : (⟨Cert.ReferenceIdeal.S1024, .f32⟩ : BufTy).Contents (Elt Ideal))
    (h1 : Cert.ReferenceIdeal.S2x2048x1024.ShapeCasts Cert.KernelIdeal.S4096x1024) (h2 : Cert.ReferenceIdeal.S1024x1024.Transposes [1, 0] Cert.KernelIdeal.S1024x1024)
    (h3 : Cert.ReferenceIdeal.S1024.ShapeCasts Cert.KernelIdeal.S1x1024) (h4 : Cert.ReferenceIdeal.S2x2048x1024.ShapeCasts Cert.KernelIdeal.S4096x1024) :
    outRows (shapeCast Cert.KernelIdeal.S4096x1024 (val_main_v37 (F := Ideal) x0 x1 x2) h1)
        (transpose Cert.KernelIdeal.S1024x1024 [1, 0] (val_main_v56 (F := Ideal) x3 x4) h2)
        (shapeCast Cert.KernelIdeal.S1x1024 (val_main_v58 (F := Ideal) x5 x6) h3)
      = shapeCast Cert.KernelIdeal.S4096x1024 (val_main_v61 (F := Ideal) x0 x1 x2 x3 x4 x5 x6) h4 := by
  funext i
  have hi0 : (i 0).val < 4096 := (i 0).isLt
  have hi1 : (i 1).val < 1024 := (i 1).isLt
  refine Eq.trans ?_ (shapeCast_apply (val_main_v61 (F := Ideal) x0 x1 x2 x3 x4 x5 x6) h4 i
    (ix3 (⟨(i 0).val / 2048, by omega⟩ : Fin 2) (⟨(i 0).val % 2048, by omega⟩ : Fin 2048) (⟨(i 1).val, hi1⟩ : Fin 1024)) ?_).symm
  · rw [val_main_v61_apply, val_main_v57_apply, val_main_v60_apply, val_main_v59_apply]
    show (∑ k : Fin 1024, _ * _) + _ = (∑ k : Fin 1024, _ * _) + _
    refine congrArg₂ (· + ·) (Finset.sum_congr rfl fun k _ => ?_) ?_
    · have hk : k.val < 1024 := k.isLt
      refine congrArg₂ (· * ·) ?_ ?_
      · refine shapeCast_apply (val_main_v37 (F := Ideal) x0 x1 x2) h1 _ _ ?_
        rw [Shape.rowMajor_val_three, Shape.rowMajor_val_two]
        show ((i 0).val / 2048 * 2048 + (i 0).val % 2048) * 1024 + k.val = (i 0).val * 1024 + k.val
        omega
      · refine transpose_apply [1, 0] (val_main_v56 (F := Ideal) x3 x4) h2 _ _ fun bb => ?_
        match bb with
        | ⟨0, _⟩ => rfl
        | ⟨1, _⟩ => rfl
    · refine shapeCast_apply (val_main_v58 (F := Ideal) x5 x6) h3 _ _ ?_
      rw [Shape.rowMajor_val_one, Shape.rowMajor_val_two]
      show (i 1).val = 0 * 1024 + (i 1).val
      omega
  · rw [Shape.rowMajor_val_three, Shape.rowMajor_val_two]
    show ((i 0).val / 2048 * 2048 + (i 0).val % 2048) * 1024 + (i 1).val = (i 0).val * 1024 + (i 1).val
    omega

end Cert.Bridge

end
-- ==== Proof.KernelStages.lean ====
/- The kernel program between its regions.  Each region's operand arrays, and the program's result, are written
   by host operations from the previous boundary's contents: the gated weights (and the gated bias) come from the
   arguments by the threshold-of-sigmoid gate and a transposition; the activations are the first argument reshaped to
   rows; the query, key and value arrays are slices of the projection's result, re-laid head by head; the last
   region's left operand is the attention result re-laid back to rows; the result is the last region's array
   reshaped.  A buffer no later stretch or region writes keeps its contents. -/
import proofs.«152784_j41704132444382_1_alg».proof.Proof.Gen.KernelIdeal.Frame
import proofs.«152784_j41704132444382_1_alg».proof.Proof.Gen.ReferenceIdeal.Read
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Into the projection region -/

/-- The activations as 4096 rows. -/
theorem stage_rows : V1 m ρ c main_v33 = shapeCast S4096x1024 (m ((c : Thread nD τ).loc main_arg0)) shapeCasts_S2x2048x1024_S4096x1024 := by
  show StableHlo.after hostOps0 (W0 m ρ c) (Proc.devRef .tc main_v33) = _
  after_results_simp
  rfl

/-- The gated projection weights, transposed: the reference's gated weights are the same operations of the same
    two arguments. -/
theorem stage_qkvW : V1 m ρ c main_v10 = transpose S1024x3072 [1, 0] (Cert.ReferenceIdeal.Read.val_main_v9 (F := Ideal) (m ((c : Thread nD τ).loc main_arg1)) (m ((c : Thread nD τ).loc main_arg2))) transposes_S3072x1024_S1024x3072_1_0 := by
  show StableHlo.after hostOps0 (W0 m ρ c) (Proc.devRef .tc main_v10) = _
  after_results_simp
  rfl

/-! ## Into the attention region -/

theorem stage_q : V3 m ρ c main_v39 = shapeCast S32x2048x64 (transpose S2x16x2048x64 [0, 2, 1, 3] (shapeCast S2x2048x16x64 (extractStridedSlice S2x2048x1x16x64 ![0, 0, 0, 0, 0] (shapeCast S2x2048x3x16x64 (W2 m ρ c (Proc.devRef .tc main_v34)) shapeCasts_S4096x3072_S2x2048x3x16x64) slices_S2x2048x3x16x64_S2x2048x1x16x64_0_0_0_0_0) shapeCasts_S2x2048x1x16x64_S2x2048x16x64) transposes_S2x2048x16x64_S2x16x2048x64_0_2_1_3) shapeCasts_S2x16x2048x64_S32x2048x64 := by
  show StableHlo.after hostOps1 (W2 m ρ c) (Proc.devRef .tc main_v39) = _
  after_results
  rfl

theorem stage_k : V3 m ρ c main_v43 = shapeCast S32x2048x64 (transpose S2x16x2048x64 [0, 2, 1, 3] (shapeCast S2x2048x16x64 (extractStridedSlice S2x2048x1x16x64 ![0, 0, 1, 0, 0] (shapeCast S2x2048x3x16x64 (W2 m ρ c (Proc.devRef .tc main_v34)) shapeCasts_S4096x3072_S2x2048x3x16x64) slices_S2x2048x3x16x64_S2x2048x1x16x64_0_0_1_0_0) shapeCasts_S2x2048x1x16x64_S2x2048x16x64) transposes_S2x2048x16x64_S2x16x2048x64_0_2_1_3) shapeCasts_S2x16x2048x64_S32x2048x64 := by
  show StableHlo.after hostOps1 (W2 m ρ c) (Proc.devRef .tc main_v43) = _
  after_results
  rfl

theorem stage_v : V3 m ρ c main_v47 = shapeCast S32x2048x64 (transpose S2x16x2048x64 [0, 2, 1, 3] (shapeCast S2x2048x16x64 (extractStridedSlice S2x2048x1x16x64 ![0, 0, 2, 0, 0] (shapeCast S2x2048x3x16x64 (W2 m ρ c (Proc.devRef .tc main_v34)) shapeCasts_S4096x3072_S2x2048x3x16x64) slices_S2x2048x3x16x64_S2x2048x1x16x64_0_0_2_0_0) shapeCasts_S2x2048x1x16x64_S2x2048x16x64) transposes_S2x2048x16x64_S2x16x2048x64_0_2_1_3) shapeCasts_S2x16x2048x64_S32x2048x64 := by
  show StableHlo.after hostOps1 (W2 m ρ c) (Proc.devRef .tc main_v47) = _
  after_results
  rfl

/-! ## Into the output-projection region -/

/-- The attention result re-laid to 4096 rows of 1024 features. -/
theorem stage_attnRows : V5 m ρ c main_v51 = shapeCast S4096x1024 (transpose S2x2048x16x64 [0, 2, 1, 3] (shapeCast S2x16x2048x64 (W4 m ρ c (Proc.devRef .tc main_v48)) shapeCasts_S32x2048x64_S2x16x2048x64) transposes_S2x16x2048x64_S2x2048x16x64_0_2_1_3) shapeCasts_S2x2048x16x64_S4096x1024 := by
  show StableHlo.after hostOps2 (W4 m ρ c) (Proc.devRef .tc main_v51) = _
  after_results
  rfl

/-- A buffer written before the first region and by nothing after it still holds, at the last region's entry, what
    the first stretch of host operations left there. -/
theorem kept_to_V5 (b : Ref sig .tc) (h0 : ∀ w, Pipeline.arrRef spec0 w ≠ b) (h1 : ∀ w, Pipeline.arrRef spec1 w ≠ b)
    (hh1 : StableHlo.after hostOps1 (W2 m ρ c) (Proc.devRef .tc b) = W2 m ρ c (Proc.devRef .tc b))
    (hh2 : StableHlo.after hostOps2 (W4 m ρ c) (Proc.devRef .tc b) = W4 m ρ c (Proc.devRef .tc b)) :
    V5 m ρ c b = V1 m ρ c b :=
  calc V5 m ρ c b = W4 m ρ c (Proc.devRef .tc b) := hh2
    _ = W3 m ρ c (Proc.devRef .tc b) := W4_of_ne m ρ c b h1
    _ = W2 m ρ c (Proc.devRef .tc b) := hh1
    _ = W1 m ρ c (Proc.devRef .tc b) := W2_of_ne m ρ c b h0

/-- The gated output weights, transposed. -/
theorem stage_outW : V5 m ρ c main_v21 = transpose S1024x1024 [1, 0] (Cert.ReferenceIdeal.Read.val_main_v56 (F := Ideal) (m ((c : Thread nD τ).loc main_arg3)) (m ((c : Thread nD τ).loc main_arg4))) transposes_S1024x1024_S1024x1024_1_0 := by
  refine (kept_to_V5 m ρ c main_v21 (by decide) (by decide) (by after_results) (by after_results)).trans ?_
  show StableHlo.after hostOps0 (W0 m ρ c) (Proc.devRef .tc main_v21) = _
  after_results_simp
  rfl

/-- The gated bias as one row. -/
theorem stage_bias : V5 m ρ c main_v32 = shapeCast S1x1024 (Cert.ReferenceIdeal.Read.val_main_v58 (F := Ideal) (m ((c : Thread nD τ).loc main_arg5)) (m ((c : Thread nD τ).loc main_arg6))) shapeCasts_S1024_S1x1024 := by
  refine (kept_to_V5 m ρ c main_v32 (by decide) (by decide) (by after_results) (by after_results)).trans ?_
  show StableHlo.after hostOps0 (W0 m ρ c) (Proc.devRef .tc main_v32) = _
  after_results_simp
  rfl

/-! ## The result -/

theorem stage_result : W7 m ρ c (Proc.devRef .tc main_v53) = shapeCast S2x2048x1024 (W6 m ρ c (Proc.devRef .tc main_v52)) shapeCasts_S4096x1024_S2x2048x1024 := by
  show StableHlo.after hostOps3 (W6 m ρ c) (Proc.devRef .tc main_v53) = _
  after_results
  rfl

end Cert.KernelIdeal.Hand

end
-- ==== Proof.KernelRun.lean ====
/- The kernel program's run with its result named.  The program is seven stretches in a row: host operations, the
   projection region, host operations, the attention region, host operations, the output-projection region, and one
   last reshape.  Every weakly fair execution ends with each unscoped buffer at the contents the stretches compose to
   from the launch memory; read at the result buffer that is the last boundary's contents there, and read at an
   argument it is the launch contents, since no stretch writes an argument. -/
import proofs.«152784_j41704132444382_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents,
    and the seven arguments end as launched. -/
theorem run_result : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Hand

end
-- ==== Proof.KernelValue.lean ====
/- The kernel program's result.  Walking the program from the launch: the projection region's array is the reshape
   of the reference's projection; the attention region's operands are therefore the reshapes of the reference's query,
   key and value arrays and its array the reshape of the reference's attention output; the last region's left operand
   is the reshape of the reference's re-laid attention output and its array the reshape of the reference's result;
   the final reshape undoes that.  So the result buffer ends at the reference's result stage, read at the kernel
   program's own arguments. -/
import proofs.«152784_j41704132444382_1_alg».proof.Proof.Bridge
import proofs.«152784_j41704132444382_1_alg».proof.Proof.KernelStages
import proofs.«152784_j41704132444382_1_alg».proof.Proof.KernelRun

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read Cert.Bridge

/-! The reshapes between the two programs' layouts of one stage: equal element counts. -/
theorem cast_qkv : Cert.ReferenceIdeal.S2x2048x3072.ShapeCasts S4096x3072 := by decide
theorem cast_heads : Cert.ReferenceIdeal.S2x16x2048x64.ShapeCasts S32x2048x64 := by decide
theorem cast_rows : Cert.ReferenceIdeal.S2x2048x1024.ShapeCasts S4096x1024 := by decide

variable (m : (ℓ : Loc nD τ sig) → Buf (Elt Ideal) ℓ) (ρ : Dev nD → PrngReg) (c : Dev nD)

/-- After the projection region: the reshape of the reference's projection. -/
theorem after_qkv : W2 m ρ c (Proc.devRef .tc main_v34) = shapeCast S4096x3072 (val_main_v10 (F := Ideal) (m ((c : Thread nD τ).loc main_arg0)) (m ((c : Thread nD τ).loc main_arg1)) (m ((c : Thread nD τ).loc main_arg2))) cast_qkv := by
  refine ((W2_arr m ρ c 2).trans (qkv_final (V1 m ρ) c)).trans ?_
  rw [stage_rows, stage_qkvW]
  exact bridge_qkv _ _ _ _ _ _

/-- After the attention region: the reshape of the reference's attention output. -/
theorem after_attn : W4 m ρ c (Proc.devRef .tc main_v48) = shapeCast S32x2048x64 (val_main_v35 (F := Ideal) (m ((c : Thread nD τ).loc main_arg0)) (m ((c : Thread nD τ).loc main_arg1)) (m ((c : Thread nD τ).loc main_arg2))) cast_heads := by
  refine ((W4_arr m ρ c 3).trans (attn_final (V3 m ρ) c)).trans ?_
  rw [stage_q, stage_k, stage_v, after_qkv]
  rw [bridge_head0 _ _ _ cast_qkv _ _ _ _ _ cast_heads, bridge_head1 _ _ _ cast_qkv _ _ _ _ _ cast_heads,
    bridge_head2 _ _ _ cast_qkv _ _ _ _ _ cast_heads]
  exact bridge_attn _ _ _ _ _ _ _

/-- After the output-projection region: the reshape of the reference's result. -/
theorem after_out : W6 m ρ c (Proc.devRef .tc main_v52) = shapeCast S4096x1024 (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) cast_rows := by
  refine ((W6_arr m ρ c 3).trans (out_final (V5 m ρ) c)).trans ?_
  rw [stage_attnRows, stage_outW, stage_bias, after_attn]
  rw [bridge_attnRows _ _ _ cast_heads _ _ _ cast_rows]
  exact bridge_out _ _ _ _ _ _ _ _ _ _ _

/-- The result buffer's final contents: the reference's result stage of the kernel program's arguments. -/
theorem kernel_result : W7 m ρ c (Proc.devRef .tc main_v53) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [stage_result, after_out]
  exact ReshapeLib.shapeCast_back _ _ _

end Cert.KernelIdeal.Hand

end
-- ==== Proof.lean ====
/- The certificate: a masked multi-head attention layer as three pipelined regions (projection, softmax attention
   per head, output projection with bias) against its jnp reference, equal as extended reals.

   Both programs gate their weights by the same host operations, 1[1/(1+exp(−mask)) > 1/2]·w.  The kernel program keeps
   its intermediate arrays flattened ([4096, ·] for [2, 2048, ·], 32 heads for [2, 16]) and tiles each matrix product
   and the attention over a grid; none of that changes a value: a block of a product needs only full rows and full
   columns (each contraction is done in one step, so no sum is split), an attention row needs only its own query row
   and its head's keys and values, the roundings to bf16 are the identity on extended reals, and the softmax is
   spelt the same on both sides, exp(s − max s) / Σ exp(s − max s), with the scale 1/32 one float literal.  So the proof
   is a walk through the kernel program in which every array is the reshape of the reference's array at the same
   stage (Proof/Bridge.lean, Proof/KernelValue.lean), and no law of arithmetic beyond reading sums and maxima at
   an index is used; the precondition is not needed.

   The three frames: the two kernel programs' are the generated frame certificates; the reference's is its generated
   run with the result dropped.  The idealization rewrote nothing, so it is preserved trivially. -/
import proofs.«152784_j41704132444382_1_alg».proof.Defs
import proofs.«152784_j41704132444382_1_alg».proof.Proof.Gen.Kernel
import proofs.«152784_j41704132444382_1_alg».proof.Proof.Gen.Kernel.Skeleton
import proofs.«152784_j41704132444382_1_alg».proof.Proof.Gen.Kernel.Launch
import proofs.«152784_j41704132444382_1_alg».proof.Proof.Gen.Kernel.Points
import proofs.«152784_j41704132444382_1_alg».proof.Proof.Gen.Kernel.Frame
import proofs.«152784_j41704132444382_1_alg».proof.Proof.Gen.KernelIdeal
import proofs.«152784_j41704132444382_1_alg».proof.Proof.Gen.KernelIdeal.Skeleton
import proofs.«152784_j41704132444382_1_alg».proof.Proof.Gen.KernelIdeal.Launch
import proofs.«152784_j41704132444382_1_alg».proof.Proof.Gen.KernelIdeal.Points
import proofs.«152784_j41704132444382_1_alg».proof.Proof.Gen.KernelIdeal.Frame
import proofs.«152784_j41704132444382_1_alg».proof.Proof.Gen.ReferenceIdeal
import proofs.«152784_j41704132444382_1_alg».proof.Proof.Gen.Pre_finite_inputs
import proofs.«152784_j41704132444382_1_alg».proof.Proof.Gen.ReferenceIdeal.Run
import proofs.«152784_j41704132444382_1_alg».proof.Proof.Gen.ReferenceIdeal.Read
import proofs.«152784_j41704132444382_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel program ends with its result at the reference's result stage of its own arguments; the reference ends
    at that stage of its arguments, which agree. -/
theorem algebraic : Cert.algebraic_KernelIdeal_ReferenceIdeal := by
  intro m ρ m' ρ' _ hagree
  refine ⟨fun c => Cert.ReferenceIdeal.Read.val_main_v61 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_result m ρ c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6⟩ := hagree c
    rw [Cert.ReferenceIdeal.Read.val_main_v61_eq, g0, g1, g2, g3, g4, g5, g6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
